-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 82
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x128, .f32⟩
  | .hbm, ⟨65, _⟩ => ⟨S50000x64, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .bf16⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S1x64, .f32⟩
  | .hbm, ⟨81, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S5000x64, .bf16⟩
  | .local _ .vmem, ⟨20, _⟩ => ⟨S5000x64, .bf16⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .bf16 = 32 ∨ (Rect.block (s := S50000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000, .f32⟩
  | 95 => ⟨S50000x1, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S_, .f32⟩
  | 113 => ⟨S50000, .f32⟩
  | 114 => ⟨S50000, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000, .f32⟩
  | 15 => ⟨S50000x1, .f32⟩
  | 16 => ⟨S50000x128, .f32⟩
  | 17 => ⟨S50000x128, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_13 : Ref sig .tc := ⟨.hbm, 81, rfl⟩
abbrev main_v47 : Ref sig .tc := ⟨.hbm, 82, rfl⟩
abbrev main_v48 : Ref sig .tc := ⟨.hbm, 83, rfl⟩
abbrev main_c_14 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_15 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call5_cst : Ref sig .tc := ⟨.hbm, 102, rfl⟩
abbrev main_call5_v0 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_call6_v0 : Ref sig .tc := ⟨.hbm, 112, rfl⟩
abbrev main_call6_v1 : Ref sig .tc := ⟨.hbm, 113, rfl⟩
abbrev main_v70 : Ref sig .tc := ⟨.hbm, 114, rfl⟩
abbrev main_cst_19 : Ref sig .tc := ⟨.hbm, 115, rfl⟩
abbrev main_v71 : Ref sig .tc := ⟨.hbm, 116, rfl⟩
abbrev main_cst_20 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_21 : Ref sig .tc := ⟨.hbm, 121, rfl⟩
abbrev main_call7_v0 : Ref sig .tc := ⟨.hbm, 122, rfl⟩
abbrev main_call7_v1 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_22 : Ref sig .tc := ⟨.hbm, 129, rfl⟩
abbrev main_v80 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_24 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call8_cst : Ref sig .tc := ⟨.hbm, 150, rfl⟩
abbrev main_call8_v0 : Ref sig .tc := ⟨.hbm, 151, rfl⟩
abbrev main_v98 : Ref sig .tc := ⟨.hbm, 152, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  The program is three pipelined regions among stretches of host operations. Every weakly fair execution from a
  memory with zero counters terminates without a fault; at the end the result buffer holds the contents the last
  region's write-backs leave (the fold of buffer contents through the program, read at the result), and the nine
  argument arrays are as launched.
-/
import proofs.«127091_j29257317220561_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v54) = W10 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v54 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Run

end
-- ==== Proof.HostReads.lean ====
/-
  What the host operations leave in the buffers the three regions read.

  Between the regions the program computes, of the edge lists src and dst alone, the two degree factors
  (the reciprocal square root of each node's out- and in-degree, the degree clamped below at 1), and before each
  region the aggregation of the previous features: gather the rows at the edges' sources, add them into the rows at
  the edges' destinations. Each statement below reads one buffer after one stretch of host operations as that
  composition of array operations applied to the contents before the stretch.
-/
import proofs.«127091_j29257317220561_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-! ## The array operations between the regions -/

/-- A node's degree clamped below at 1: one unit added per edge listed at the node. -/
def deg (a : IVec S800000 32) : FVec F S50000 .f32 :=
  maximumf (broadcastInDim S50000 ![] bcast_S_S50000 (constant (F := F) S_ .f32 0x3F800000#32))
    (Host.scatterAdd (F := F) scatter_S50000_S800000x1_S800000_n_0_0_1
      (broadcastInDim S50000 ![] bcast_S_S50000 (constant (F := F) S_ .f32 0x00000000#32))
      (broadcastInDim S800000x1 ![0] bcast_S800000_S800000x1_0 a)
      (broadcastInDim S800000 ![] bcast_S_S800000 (constant (F := F) S_ .f32 0x3F800000#32)))

/-- The degree factor as a column: the reciprocal square root of the clamped degree. -/
def fac (a : IVec S800000 32) : FVec F S50000x1 .f32 :=
  shapeCast S50000x1 (Host.rsqrt (deg (F := F) a)) shapeCasts_S50000_S50000x1

/-- The source row numbers as gather indices (a negative number counts from the end). -/
def srcIdx (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

/-- The destination row numbers as scatter indices. -/
def dstIdx (a2 : IVec S800000 32) : IVec S800000x1 32 :=
  broadcastInDim S800000x1 ![0] bcast_S800000_S800000x1_0 a2

/-- The aggregation of 128-wide features. -/
def agg128 (a1 a2 : IVec S800000 32) (h : FVec F S50000x128 .bf16) : FVec F S50000x128 .f32 :=
  Host.scatterAdd (F := F) scatter_S50000x128_S800000x1_S800000x128_1_0_0_1
    (broadcastInDim S50000x128 ![] bcast_S_S50000x128 (constant (F := F) S_ .f32 0x00000000#32)) (dstIdx a2)
    (extf .f32 (Host.gather gather_S50000x128_S800000x1_S800000x128_1_0_n_n_0_1_1128 h (srcIdx a1)) bitsLt_bf16_f32)

/-- The aggregation of 64-wide features. -/
def agg64 (a1 a2 : IVec S800000 32) (h : FVec F S50000x64 .bf16) : FVec F S50000x64 .f32 :=
  Host.scatterAdd (F := F) scatter_S50000x64_S800000x1_S800000x64_1_0_0_1
    (broadcastInDim S50000x64 ![] bcast_S_S50000x64 (constant (F := F) S_ .f32 0x00000000#32)) (dstIdx a2)
    (extf .f32 (Host.gather gather_S50000x64_S800000x1_S800000x64_1_0_n_n_0_1_164 h (srcIdx a1)) bitsLt_bf16_f32)

/-- The first layer's input: the features scaled by the source factor. -/
def scaled (a0 : FVec F S50000x128 .f32) (a1 : IVec S800000 32) : FVec F S50000x128 .bf16 :=
  truncf .bf16 (mulf a0 (broadcastInDim S50000x128 ![0, 1] bcast_S50000x1_S50000x128_0_1 (fac (F := F) a1))) bitsLt_bf16_f32

/-- A bias vector as a one-row array. -/
def biasRow128 (b : FVec F S128 .f32) : FVec F S1x128 .f32 := shapeCast S1x128 b shapeCasts_S128_S1x128
def biasRow64 (b : FVec F S64 .f32) : FVec F S1x64 .f32 := shapeCast S1x64 b shapeCasts_S64_S1x64

variable (m : (ℓ : Loc nD τ sig) → Buf (Elt F) ℓ) (ρ : Dev nD → PrngReg) (c : Dev nD)

/-! ## Before the first region -/

/-- The buffer contents at the first region's entry, as one fold from the launch contents. -/
theorem W5_eq (b : DevRef τ sig) : W5 m ρ c b
    = StableHlo.after hostOps0_4 (StableHlo.after hostOps0_3 (StableHlo.after hostOps0_2 (StableHlo.after hostOps0_1 (StableHlo.after hostOps0 (W0 m ρ c))))) b := rfl

set_option maxHeartbeats 2000000 in
theorem r5_v10 : W5 m ρ c (Proc.devRef .tc main_v10) = fac (F := F) (m ((c : Thread nD τ).loc main_arg1)) := by
  rw [W5_eq]; simp only [hostOps0_4, hostOps0_3, hostOps0_2, hostOps0_1, hostOps0]
  after_results
  try simp only [cast_eq, id_eq]
  try rfl

set_option maxHeartbeats 2000000 in
theorem r5_v12 : W5 m ρ c (Proc.devRef .tc main_v12) = fac (F := F) (m ((c : Thread nD τ).loc main_arg2)) := by
  rw [W5_eq]; simp only [hostOps0_4, hostOps0_3, hostOps0_2, hostOps0_1, hostOps0]
  after_results
  try simp only [cast_eq, id_eq]
  try rfl

set_option maxHeartbeats 8000000 in
theorem r5_v26 : W5 m ρ c (Proc.devRef .tc main_v26) = agg128 (F := F) (m ((c : Thread nD τ).loc main_arg1)) (m ((c : Thread nD τ).loc main_arg2)) (scaled (F := F) (m ((c : Thread nD τ).loc main_arg0)) (m ((c : Thread nD τ).loc main_arg1))) := by
  rw [W5_eq]; simp only [hostOps0_4, hostOps0_3, hostOps0_2, hostOps0_1, hostOps0]
  after_results
  try simp only [cast_eq, id_eq]
  try rfl

set_option maxHeartbeats 2000000 in
theorem r5_v27 : W5 m ρ c (Proc.devRef .tc main_v27) = biasRow128 (F := F) (m ((c : Thread nD τ).loc main_arg4)) := by
  rw [W5_eq]; simp only [hostOps0_4, hostOps0_3, hostOps0_2, hostOps0_1, hostOps0]
  after_results
  try simp only [cast_eq, id_eq]
  try rfl

set_option maxHeartbeats 2000000 in
theorem r5_arg1 : W5 m ρ c (Proc.devRef .tc main_arg1) = (m ((c : Thread nD τ).loc main_arg1)) := by
  rw [W5_eq]; simp only [hostOps0_4, hostOps0_3, hostOps0_2, hostOps0_1, hostOps0]
  after_results

set_option maxHeartbeats 2000000 in
theorem r5_arg2 : W5 m ρ c (Proc.devRef .tc main_arg2) = (m ((c : Thread nD τ).loc main_arg2)) := by
  rw [W5_eq]; simp only [hostOps0_4, hostOps0_3, hostOps0_2, hostOps0_1, hostOps0]
  after_results

set_option maxHeartbeats 2000000 in
theorem r5_arg3 : W5 m ρ c (Proc.devRef .tc main_arg3) = (m ((c : Thread nD τ).loc main_arg3)) := by
  rw [W5_eq]; simp only [hostOps0_4, hostOps0_3, hostOps0_2, hostOps0_1, hostOps0]
  after_results

set_option maxHeartbeats 2000000 in
theorem r5_arg5 : W5 m ρ c (Proc.devRef .tc main_arg5) = (m ((c : Thread nD τ).loc main_arg5)) := by
  rw [W5_eq]; simp only [hostOps0_4, hostOps0_3, hostOps0_2, hostOps0_1, hostOps0]
  after_results

set_option maxHeartbeats 2000000 in
theorem r5_arg6 : W5 m ρ c (Proc.devRef .tc main_arg6) = (m ((c : Thread nD τ).loc main_arg6)) := by
  rw [W5_eq]; simp only [hostOps0_4, hostOps0_3, hostOps0_2, hostOps0_1, hostOps0]
  after_results

set_option maxHeartbeats 2000000 in
theorem r5_arg7 : W5 m ρ c (Proc.devRef .tc main_arg7) = (m ((c : Thread nD τ).loc main_arg7)) := by
  rw [W5_eq]; simp only [hostOps0_4, hostOps0_3, hostOps0_2, hostOps0_1, hostOps0]
  after_results

set_option maxHeartbeats 2000000 in
theorem r5_arg8 : W5 m ρ c (Proc.devRef .tc main_arg8) = (m ((c : Thread nD τ).loc main_arg8)) := by
  rw [W5_eq]; simp only [hostOps0_4, hostOps0_3, hostOps0_2, hostOps0_1, hostOps0]
  after_results

/-! ## Between the first and the second region -/

set_option maxHeartbeats 2000000 in
theorem r7_v39 : W7 m ρ c (Proc.devRef .tc main_v39)
    = agg128 (F := F) (W6 m ρ c (Proc.devRef .tc main_arg1)) (W6 m ρ c (Proc.devRef .tc main_arg2)) (W6 m ρ c (Proc.devRef .tc main_v28)) := by
  show StableHlo.after hostOps1 (W6 m ρ c) (Proc.devRef .tc main_v39) = _
  simp only [hostOps1]
  after_results
  try simp only [cast_eq, id_eq]
  try rfl

theorem r7_v40 : W7 m ρ c (Proc.devRef .tc main_v40) = biasRow128 (F := F) (W6 m ρ c (Proc.devRef .tc main_arg6)) := by
  show StableHlo.after hostOps1 (W6 m ρ c) (Proc.devRef .tc main_v40) = _
  simp only [hostOps1]
  after_results
  try simp only [cast_eq, id_eq]
  try rfl

theorem r7_v12 : W7 m ρ c (Proc.devRef .tc main_v12) = W6 m ρ c (Proc.devRef .tc main_v12) := by
  show StableHlo.after hostOps1 (W6 m ρ c) (Proc.devRef .tc main_v12) = _
  simp only [hostOps1]
  after_results

theorem r7_v10 : W7 m ρ c (Proc.devRef .tc main_v10) = W6 m ρ c (Proc.devRef .tc main_v10) := by
  show StableHlo.after hostOps1 (W6 m ρ c) (Proc.devRef .tc main_v10) = _
  simp only [hostOps1]
  after_results

theorem r7_arg1 : W7 m ρ c (Proc.devRef .tc main_arg1) = W6 m ρ c (Proc.devRef .tc main_arg1) := by
  show StableHlo.after hostOps1 (W6 m ρ c) (Proc.devRef .tc main_arg1) = _
  simp only [hostOps1]
  after_results

theorem r7_arg2 : W7 m ρ c (Proc.devRef .tc main_arg2) = W6 m ρ c (Proc.devRef .tc main_arg2) := by
  show StableHlo.after hostOps1 (W6 m ρ c) (Proc.devRef .tc main_arg2) = _
  simp only [hostOps1]
  after_results

theorem r7_arg5 : W7 m ρ c (Proc.devRef .tc main_arg5) = W6 m ρ c (Proc.devRef .tc main_arg5) := by
  show StableHlo.after hostOps1 (W6 m ρ c) (Proc.devRef .tc main_arg5) = _
  simp only [hostOps1]
  after_results

theorem r7_arg7 : W7 m ρ c (Proc.devRef .tc main_arg7) = W6 m ρ c (Proc.devRef .tc main_arg7) := by
  show StableHlo.after hostOps1 (W6 m ρ c) (Proc.devRef .tc main_arg7) = _
  simp only [hostOps1]
  after_results

theorem r7_arg8 : W7 m ρ c (Proc.devRef .tc main_arg8) = W6 m ρ c (Proc.devRef .tc main_arg8) := by
  show StableHlo.after hostOps1 (W6 m ρ c) (Proc.devRef .tc main_arg8) = _
  simp only [hostOps1]
  after_results

/-! ## Between the second and the third region -/

set_option maxHeartbeats 2000000 in
theorem r9_v52 : W9 m ρ c (Proc.devRef .tc main_v52)
    = agg64 (F := F) (W8 m ρ c (Proc.devRef .tc main_arg1)) (W8 m ρ c (Proc.devRef .tc main_arg2)) (W8 m ρ c (Proc.devRef .tc main_v41)) := by
  show StableHlo.after hostOps2 (W8 m ρ c) (Proc.devRef .tc main_v52) = _
  simp only [hostOps2]
  after_results
  try simp only [cast_eq, id_eq]
  try rfl

theorem r9_v53 : W9 m ρ c (Proc.devRef .tc main_v53) = biasRow64 (F := F) (W8 m ρ c (Proc.devRef .tc main_arg8)) := by
  show StableHlo.after hostOps2 (W8 m ρ c) (Proc.devRef .tc main_v53) = _
  simp only [hostOps2]
  after_results
  try simp only [cast_eq, id_eq]
  try rfl

theorem r9_v12 : W9 m ρ c (Proc.devRef .tc main_v12) = W8 m ρ c (Proc.devRef .tc main_v12) := by
  show StableHlo.after hostOps2 (W8 m ρ c) (Proc.devRef .tc main_v12) = _
  simp only [hostOps2]
  after_results

end Cert.KernelIdeal.Host

end
-- ==== Proof.Spec.lean ====
/-
  The dense half of a graph-convolution layer, entry by entry, on the extended reals.

  A layer of the network is: aggregate neighbours' rows (a host gather and scatter-add), then, row by row,
  scale the aggregate by the destination degree factor d, multiply by a weight matrix, add a bias, clamp at 0
  below. `dense` is that row-wise map at one entry. The three pipelined regions of the kernel compute, of whole
  arrays with n rows,
    * `layerA`:  dense, then scaled by the source degree factor s (ready to be aggregated again);
    * `layerB`:  the same followed by a product with the NEXT layer's weights W3 (the last layer's matrix applied
                  before its aggregation instead of after it);
    * `layerC`:  the scale by d, the bias and the clamp alone (the last layer, its matrix already applied).
  Arrays are total functions on literal index types; row r of a one-column array is entry (r, 0).
-/
import Idealize.ShloMosaic.PureOps.Ideal
import Idealize.ShloMosaic.Lib.ValueIdx

noncomputable section

open scoped BigOperators

namespace Cert.Spec

open Idealize.ShloMosaic Idealize.ShloMosaic.ValueIdx

/-- An n × c array of extended reals. -/
abbrev Mat (n c : ℕ) : Type := (⟨2, ![n, c]⟩ : Shape).Idx → EReal

/-- The row and the column of an index, at their literal extents. -/
abbrev row {n c : ℕ} (i : (⟨2, ![n, c]⟩ : Shape).Idx) : Fin n := ⟨(i 0).val, idx2_lt0 i⟩
abbrev col {n c : ℕ} (i : (⟨2, ![n, c]⟩ : Shape).Idx) : Fin c := ⟨(i 1).val, idx2_lt1 i⟩

theorem eq_ix2_row_col {n c : ℕ} (i : (⟨2, ![n, c]⟩ : Shape).Idx) : i = ix2 (row i) (col i) := by
  funext d
  match d with
  | ⟨0, _⟩ => rfl
  | ⟨1, _⟩ => rfl

/-- The float word of +0, which the clamp compares against. -/
def zeroW : EReal := Ideal.ofBits .f32 0x00000000#32

/-- One entry of relu((A ⊙ d) W + b): row r of A scaled by d r, against column j of W, plus b j, clamped below at 0. -/
def dense {n k c : ℕ} (A : Mat n k) (D : Mat n 1) (W : Mat k c) (b : Mat 1 c) (r : Fin n) (j : Fin c) : EReal :=
  max ((∑ q : Fin k, (A (ix2 r q) * D (ix2 r (0 : Fin 1))) * W (ix2 q j)) + b (ix2 (0 : Fin 1) j)) zeroW

/-- The first region: the dense map, each row then scaled by s. -/
def layerA {n : ℕ} (A : Mat n 128) (D S : Mat n 1) (W : Mat 128 128) (b : Mat 1 128) : Mat n 128 :=
  fun i => dense A D W b (row i) (col i) * S (ix2 (row i) (0 : Fin 1))

/-- The second region: the dense map, each row scaled by s, then multiplied by the last layer's weights. -/
def layerB {n : ℕ} (A : Mat n 128) (D S : Mat n 1) (W2 : Mat 128 128) (b : Mat 1 128) (W3 : Mat 128 64) : Mat n 64 :=
  fun i => ∑ q : Fin 128, (dense A D W2 b (row i) q * S (ix2 (row i) (0 : Fin 1))) * W3 (ix2 q (col i))

/-- The third region: scale by d, add the bias, clamp below at 0. -/
def layerC {n : ℕ} (A : Mat n 64) (D : Mat n 1) (b : Mat 1 64) : Mat n 64 :=
  fun i => max (A i * D (ix2 (row i) (0 : Fin 1)) + b (ix2 (0 : Fin 1) (col i))) zeroW

end Cert.Spec

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibBlockRows.lean ====
/-
  Small facts about row-blocked arrays, used when a blockwise computation is read as one whole-array function.

  * The offsets `![0, 0]` of a whole-block access are the zero function.
  * A one-column array broadcast along the columns reads, at `(p, c)`, its entry `(p, 0)`.
-/
import Idealize.ShloMosaic.Lib.ValueIdx
import Idealize.ShloMosaic.Lib.ValueLayout
import Idealize.ShloMosaic.Lib.Pipeline.Value

namespace Cert.LibBlockRows

open Idealize.ShloMosaic Idealize.ShloMosaic.ValueIdx

variable {α : Type}

/-- The offsets of an access at the block's origin, as the zero function. -/
theorem zero_offsets : (![0, 0] : Fin 2 → Nat) = fun _ => 0 := funext fun a => by fin_cases a <;> rfl

/-- One column broadcast over many: the result at `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBlockRows
-- ==== Proof.Region0.lean ====
/-
  The first pipelined region as a whole-array function.

  The region walks the 50000 rows of its output in ten blocks of 5000 rows. At each block the body reads the matching
  block of the aggregate A, of the destination degree column d and of the source degree column s, and the whole weight
  matrix W and bias row b; it stores relu((A ⊙ d) W + b) ⊙ s into the output block. Entry by entry that is
  `Cert.Spec.layerA` of the five arrays as the region finds them, whatever they hold:
  * the matrix product into a zero accumulator at an entry is the sum over the contracted coordinate (`dotA_apply`), so
    the body's value at entry (p, q) of a block is the dense map of the blocks at (p, q) times s's entry p (`pay0_apply`);
  * the dense map of row blocks is the dense map of the whole arrays at the block's row (`dense_of_block`);
  * entry (p, q) of block t is entry (5000 t + p, q) of each row-blocked array, and the weights' and the bias's one
    block is the whole array, so what point t writes back is block t of `layerA` (`flushed0_eq`);
  * row r lies in block r / 5000, so the blocks cover the array and it ends at `layerA` (`final0`).
-/
import proofs.«127091_j29257317220561_2_alg».proof.Proof.Gen.KernelIdeal.Frame
import proofs.«127091_j29257317220561_2_alg».proof.Proof.Spec
import proofs.«127091_j29257317220561_2_alg».proof.Proof.LibColumnBlocks
import proofs.«127091_j29257317220561_2_alg».proof.Proof.LibBlockRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.LibBlockRows

/-- The first weight product's dimension record: its two free coordinates. -/
theorem dotA_lhs0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotA_rhs1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with the 128 × 128 weights into a zero accumulator, at an entry. -/
theorem dotA_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) :=
  Cert.LibColumnBlocks.matmul_zero_apply dot_S5000x128_S128x128_S5000x128_1_0_0_1_n_n rfl rfl rfl rfl dotA_lhs0 dotA_rhs1 lhs rhs p q none

/-- The first region's payload at an entry. -/
theorem pay0_apply (x0 : Vec Ideal S5000x128 .f32) (x1 x2 : Vec Ideal S5000x1 .f32) (x3 : Vec Ideal S128x128 .f32) (x4 : Vec Ideal S1x128 .f32) (p : Fin 5000) (q : Fin 128) :
    k0_pay1 (F := Ideal) x0 x1 x3 x4 x2 (ix2 p q) = Cert.Spec.dense x0 x1 x3 x4 p q * x2 (ix2 p (0 : Fin 1)) := by
  unfold k0_pay1
  simp only [shapeCast_self]
  show max ((matmul (F := Ideal) dot_S5000x128_S128x128_S5000x128_1_0_0_1_n_n none
              (truncf .bf16 (mulf x0 (broadcastTo S5000x128 x1 broadcasts_S5000x1_S5000x128)) bitsLt_bf16_f32)
              (truncf .bf16 x3 bitsLt_bf16_f32) (constant S5000x128 .f32 0x00000000#32) (ix2 p q) : EReal)
            + broadcastTo S5000x128 x4 broadcasts_S1x128_S5000x128 (ix2 p q)) (Ideal.ofBits .f32 0x00000000#32)
        * broadcastTo S5000x128 x2 broadcasts_S5000x1_S5000x128 (ix2 p q) = _
  have hsum : (∑ k : Fin 128, (truncf .bf16 (mulf x0 (broadcastTo S5000x128 x1 broadcasts_S5000x1_S5000x128)) bitsLt_bf16_f32 : FVec Ideal S5000x128 .bf16) (ix2 p k)
        * (truncf .bf16 x3 bitsLt_bf16_f32 : FVec Ideal S128x128 .bf16) (ix2 k q))
      = ∑ k : Fin 128, (x0 (ix2 p k) * x1 (ix2 p (0 : Fin 1))) * x3 (ix2 k q) :=
    Finset.sum_congr rfl fun k _ => by
      show (x0 (ix2 p k) * broadcastTo S5000x128 x1 broadcasts_S5000x1_S5000x128 (ix2 p k)) * x3 (ix2 k q) = _
      rw [broadcastTo_a1_ab_apply x1]
  rw [dotA_apply, hsum, broadcastTo_1b_ab_apply x4, broadcastTo_a1_ab_apply x2]
  rfl

/-- The same at an index not yet split into its row and column. -/
theorem pay0_at (x0 : Vec Ideal S5000x128 .f32) (x1 x2 : Vec Ideal S5000x1 .f32) (x3 : Vec Ideal S128x128 .f32) (x4 : Vec Ideal S1x128 .f32) (j : S5000x128.Idx) :
    k0_pay1 (F := Ideal) x0 x1 x3 x4 x2 j
      = Cert.Spec.dense x0 x1 x3 x4 (Cert.Spec.row j) (Cert.Spec.col j) * x2 (ix2 (Cert.Spec.row j) (0 : Fin 1)) := by
  have h := pay0_apply x0 x1 x2 x3 x4 (Cert.Spec.row j) (Cert.Spec.col j)
  rwa [← Cert.Spec.eq_ix2_row_col j] at h

/-- The dense map of a row block is the dense map of the whole array at the block's row. -/
theorem dense_of_block {n m k c : ℕ} (A : Cert.Spec.Mat n k) (D : Cert.Spec.Mat n 1) (W : Cert.Spec.Mat k c) (b : Cert.Spec.Mat 1 c)
    (x0 : Cert.Spec.Mat m k) (x1 : Cert.Spec.Mat m 1) (x3 : Cert.Spec.Mat k c) (x4 : Cert.Spec.Mat 1 c) (r : Fin m) (R : Fin n) (j j' : Fin c)
    (h0 : ∀ q : Fin k, x0 (ix2 r q) = A (ix2 R q)) (h1 : x1 (ix2 r (0 : Fin 1)) = D (ix2 R (0 : Fin 1)))
    (h3 : ∀ q : Fin k, x3 (ix2 q j) = W (ix2 q j')) (h4 : x4 (ix2 (0 : Fin 1) j) = b (ix2 (0 : Fin 1) j')) :
    Cert.Spec.dense x0 x1 x3 x4 r j = Cert.Spec.dense A D W b R j' := by
  unfold Cert.Spec.dense
  rw [h1, h4, Finset.sum_congr rfl fun q _ => by rw [h0 q, h3 q]]

variable (V : (c : Dev nD) → (b : Ref sig .tc) → Buf (Elt Ideal) ((c : Thread nD τ).loc b)) (c : Dev nD)

/-- The region's input arrays as it finds them, at their literal types. -/
abbrev agg0 : Cert.Spec.Mat 50000 128 := V c main_v26
abbrev dst0 : Cert.Spec.Mat 50000 1 := V c main_v12
abbrev src0 : Cert.Spec.Mat 50000 1 := V c main_v10
abbrev wts0 : Cert.Spec.Mat 128 128 := V c main_arg3
abbrev bias0 : Cert.Spec.Mat 1 128 := V c main_v27

/-- The printed index maps, decided over the grid: the row-blocked windows are at block (t, 0), the weights and the bias at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `layerA` of the input arrays as the region finds them. -/
theorem flushed0_eq (t : Fin cfg0.N) :
    (dat0 (F := Ideal) V c).flushed 5 t
      = ((cfg0.win 5).blk t).view.read (Elt Ideal) (Cert.Spec.layerA (agg0 V c) (dst0 V c) (src0 V c) (wts0 V c) (bias0 V c)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨e00, e01, e10, e11, e20, e21, e30, e31, e40, e41, e50, e51⟩ := idx_facts0 t
  refine (pay0_at (iblk0 V c 0 t) (iblk0 V c 1 t) (iblk0 V c 2 t) (iblk0 V c 3 t) (iblk0 V c 4 t) ((win0 5).xinj (grid0.coords t) j)).trans ?_
  have hp : (j 0).val < 5000 := (j 0).isLt
  have hq : (j 1).val < 128 := (j 1).isLt
  show _ = Cert.Spec.dense (agg0 V c) (dst0 V c) (wts0 V c) (bias0 V c)
        (Cert.Spec.row (((cfg0.win 5).blk t).view.emb j)) (Cert.Spec.col (((cfg0.win 5).blk t).view.emb j))
      * src0 V c (ix2 (Cert.Spec.row (((cfg0.win 5).blk t).view.emb j)) (0 : Fin 1))
  -- each input block read where the output block's entry lies: block index × block extent + the coordinate inside
  have h0 : ∀ k : Fin 128, (iblk0 V c 0 t : Cert.Spec.Mat 5000 128) (ix2 (Cert.Spec.row ((win0 5).xinj (grid0.coords t) j)) k)
      = agg0 V c (ix2 (Cert.Spec.row (((cfg0.win 5).blk t).view.emb j)) k) := fun k => by
    show agg0 V c (((cfg0.win 0).blk t).view.emb (ix2 (Cert.Spec.row ((win0 5).xinj (grid0.coords t) j)) k)) = _
    refine congrArg (agg0 V c) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have h1 : (iblk0 V c 1 t : Cert.Spec.Mat 5000 1) (ix2 (Cert.Spec.row ((win0 5).xinj (grid0.coords t) j)) (0 : Fin 1))
      = dst0 V c (ix2 (Cert.Spec.row (((cfg0.win 5).blk t).view.emb j)) (0 : Fin 1)) := by
    show dst0 V c (((cfg0.win 1).blk t).view.emb (ix2 (Cert.Spec.row ((win0 5).xinj (grid0.coords t) j)) (0 : Fin 1))) = _
    refine congrArg (dst0 V c) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 1 + 1 * 0 = 0; omega
  have h2 : (iblk0 V c 2 t : Cert.Spec.Mat 5000 1) (ix2 (Cert.Spec.row ((win0 5).xinj (grid0.coords t) j)) (0 : Fin 1))
      = src0 V c (ix2 (Cert.Spec.row (((cfg0.win 5).blk t).view.emb j)) (0 : Fin 1)) := by
    show src0 V c (((cfg0.win 2).blk t).view.emb (ix2 (Cert.Spec.row ((win0 5).xinj (grid0.coords t) j)) (0 : Fin 1))) = _
    refine congrArg (src0 V c) (funext fun a => Fin.ext ?_)
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 1 + 1 * 0 = 0; omega
  have h3 : ∀ k : Fin 128, (iblk0 V c 3 t : Cert.Spec.Mat 128 128) (ix2 k (Cert.Spec.col ((win0 5).xinj (grid0.coords t) j)))
      = wts0 V c (ix2 k (Cert.Spec.col (((cfg0.win 5).blk t).view.emb j))) := fun k => by
    show wts0 V c (((cfg0.win 3).blk t).view.emb (ix2 k (Cert.Spec.col ((win0 5).xinj (grid0.coords t) j)))) = _
    refine congrArg (wts0 V c) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : (iblk0 V c 4 t : Cert.Spec.Mat 1 128) (ix2 (0 : Fin 1) (Cert.Spec.col ((win0 5).xinj (grid0.coords t) j)))
      = bias0 V c (ix2 (0 : Fin 1) (Cert.Spec.col (((cfg0.win 5).blk t).view.emb j))) := by
    show bias0 V c (((cfg0.win 4).blk t).view.emb (ix2 (0 : Fin 1) (Cert.Spec.col ((win0 5).xinj (grid0.coords t) j)))) = _
    refine congrArg (bias0 V c) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  exact congrArg₂ (fun a b : EReal => a * b)
    (dense_of_block (n := 50000) (m := 5000) (k := 128) (c := 128) (agg0 V c) (dst0 V c) (wts0 V c) (bias0 V c)
      (iblk0 V c 0 t) (iblk0 V c 1 t) (iblk0 V c 3 t) (iblk0 V c 4 t) _ _ _ _ h0 h1 h3 h4) h2

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every row of the output lies in the block of the point numbered by its row divided by the block height. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e50, e51⟩ := idx_facts0 t
  have ht : (t : ℕ) = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region leaves its output array at `layerA` of its input arrays as it found them. -/
theorem final0 : (dat0 (F := Ideal) V c).arrAt 5 cfg0.N
    = Cert.Spec.layerA (V c main_v26) (V c main_v12) (V c main_v10) (V c main_arg3) (V c main_v27) :=
  (dat0 (F := Ideal) V c).arrAt_eq_of_cover 5 (Cert.Spec.layerA (agg0 V c) (dst0 V c) (src0 V c) (wts0 V c) (bias0 V c))
    (fun t _ => flushed0_eq V c t) cover0

end Cert.KernelIdeal.Regions
end
-- ==== Proof.Region1.lean ====
/-
  The second pipelined region as a whole-array function.

  The body is the first region's — relu((A ⊙ d) W2 + b) ⊙ s on a block of 5000 rows — followed by a product with the
  next layer's 128 × 64 weights W3, stored into the output block. Entry by entry that is `Cert.Spec.layerB` of the six
  arrays as the region finds them, whatever they hold:
  * the second product into a zero accumulator at an entry is the sum over the contracted coordinate (`dotB_apply`) of
    the first region's value there (`pay0_apply`) against W3 (`pay1_apply`);
  * entry (p, q) of block t is entry (5000 t + p, q) of each row-blocked array, and the two weight matrices' and the
    bias's one block is the whole array, so what point t writes back is block t of `layerB` (`flushed1_eq`, through
    `dense_of_block` under the sum);
  * row r lies in block r / 5000, so the blocks cover the array and it ends at `layerB` (`final1`).
-/
import proofs.«127091_j29257317220561_2_alg».proof.Proof.Gen.KernelIdeal.Frame
import proofs.«127091_j29257317220561_2_alg».proof.Proof.Spec
import proofs.«127091_j29257317220561_2_alg».proof.Proof.LibColumnBlocks
import proofs.«127091_j29257317220561_2_alg».proof.Proof.LibBlockRows
import proofs.«127091_j29257317220561_2_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.LibBlockRows

/-- The second weight product's dimension record: its two free coordinates. -/
theorem dotB_lhs0 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dotB_rhs1 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a 5000 × 128 block with the 128 × 64 weights into a zero accumulator, at an entry. -/
theorem dotB_apply {φ₁ φ₂ : FTy} (lhs : FVec Ideal S5000x128 φ₁) (rhs : FVec Ideal S128x64 φ₂) (p : Fin 5000) (q : Fin 64) :
    matmul dot_S5000x128_S128x64_S5000x64_1_0_0_1_n_n none lhs rhs (constant S5000x64 .f32 0x00000000#32) (ix2 p q)
      = ∑ k : Fin 128, lhs (ix2 p k) * rhs (ix2 k q) :=
  Cert.LibColumnBlocks.matmul_zero_apply dot_S5000x128_S128x64_S5000x64_1_0_0_1_n_n rfl rfl rfl rfl dotB_lhs0 dotB_rhs1 lhs rhs p q none

/-- The second region's payload at an entry: the first region's, multiplied by the next layer's weights. -/
theorem pay1_apply (x0 : Vec Ideal S5000x128 .f32) (x1 x2 : Vec Ideal S5000x1 .f32) (x3 : Vec Ideal S128x128 .f32) (x4 : Vec Ideal S1x128 .f32)
    (x5 : Vec Ideal S128x64 .f32) (p : Fin 5000) (q : Fin 64) :
    k1_pay1 (F := Ideal) x0 x1 x3 x4 x2 x5 (ix2 p q)
      = ∑ k : Fin 128, (Cert.Spec.dense x0 x1 x3 x4 p k * x2 (ix2 p (0 : Fin 1))) * x5 (ix2 k q) := by
  show (matmul (F := Ideal) dot_S5000x128_S128x64_S5000x64_1_0_0_1_n_n none (k0_pay1 (F := Ideal) x0 x1 x3 x4 x2)
      (truncf .bf16 x5 bitsLt_bf16_f32) (constant S5000x64 .f32 0x00000000#32) (ix2 p q) : EReal) = _
  rw [dotB_apply]
  refine Finset.sum_congr rfl fun k _ => ?_
  rw [pay0_apply]
  rfl

/-- The same at an index not yet split into its row and column. -/
theorem pay1_at (x0 : Vec Ideal S5000x128 .f32) (x1 x2 : Vec Ideal S5000x1 .f32) (x3 : Vec Ideal S128x128 .f32) (x4 : Vec Ideal S1x128 .f32)
    (x5 : Vec Ideal S128x64 .f32) (j : S5000x64.Idx) :
    k1_pay1 (F := Ideal) x0 x1 x3 x4 x2 x5 j
      = ∑ k : Fin 128, (Cert.Spec.dense x0 x1 x3 x4 (Cert.Spec.row j) k * x2 (ix2 (Cert.Spec.row j) (0 : Fin 1))) * x5 (ix2 k (Cert.Spec.col j)) := by
  have h := pay1_apply x0 x1 x2 x3 x4 x5 (Cert.Spec.row j) (Cert.Spec.col j)
  rwa [← Cert.Spec.eq_ix2_row_col j] at h

variable (V : (c : Dev nD) → (b : Ref sig .tc) → Buf (Elt Ideal) ((c : Thread nD τ).loc b)) (c : Dev nD)

/-- The region's input arrays as it finds them, at their literal types. -/
abbrev agg1 : Cert.Spec.Mat 50000 128 := V c main_v39
abbrev dst1 : Cert.Spec.Mat 50000 1 := V c main_v12
abbrev src1 : Cert.Spec.Mat 50000 1 := V c main_v10
abbrev wts1 : Cert.Spec.Mat 128 128 := V c main_arg5
abbrev bias1 : Cert.Spec.Mat 1 128 := V c main_v40
abbrev nxt1 : Cert.Spec.Mat 128 64 := V c main_arg7

/-- The printed index maps, decided over the grid: the row-blocked windows are at block (t, 0), the weights and the bias at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `layerB` of the input arrays as the region finds them. -/
theorem flushed1_eq (t : Fin cfg1.N) :
    (dat1 (F := Ideal) V c).flushed 6 t
      = ((cfg1.win 6).blk t).view.read (Elt Ideal)
          (Cert.Spec.layerB (agg1 V c) (dst1 V c) (src1 V c) (wts1 V c) (bias1 V c) (nxt1 V c)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets,
    View.ld_unit_zero (S := S128x64) zero_offsets]
  funext j
  obtain ⟨e00, e01, e10, e11, e20, e21, e30, e31, e40, e41, e50, e51, e60, e61⟩ := idx_facts1 t
  refine (pay1_at (iblk1 V c 0 t) (iblk1 V c 1 t) (iblk1 V c 2 t) (iblk1 V c 3 t) (iblk1 V c 4 t) (iblk1 V c 5 t)
    ((win1 6).xinj (grid1.coords t) j)).trans ?_
  have hp : (j 0).val < 5000 := (j 0).isLt
  have hq : (j 1).val < 64 := (j 1).isLt
  show _ = ∑ k : Fin 128, (Cert.Spec.dense (agg1 V c) (dst1 V c) (wts1 V c) (bias1 V c) (Cert.Spec.row (((cfg1.win 6).blk t).view.emb j)) k
        * src1 V c (ix2 (Cert.Spec.row (((cfg1.win 6).blk t).view.emb j)) (0 : Fin 1)))
      * nxt1 V c (ix2 k (Cert.Spec.col (((cfg1.win 6).blk t).view.emb j)))
  -- each input block read where the output block's entry lies: block index × block extent + the coordinate inside
  have h0 : ∀ k : Fin 128, (iblk1 V c 0 t : Cert.Spec.Mat 5000 128) (ix2 (Cert.Spec.row ((win1 6).xinj (grid1.coords t) j)) k)
      = agg1 V c (ix2 (Cert.Spec.row (((cfg1.win 6).blk t).view.emb j)) k) := fun k => by
    show agg1 V c (((cfg1.win 0).blk t).view.emb (ix2 (Cert.Spec.row ((win1 6).xinj (grid1.coords t) j)) k)) = _
    refine congrArg (agg1 V c) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  have h1 : (iblk1 V c 1 t : Cert.Spec.Mat 5000 1) (ix2 (Cert.Spec.row ((win1 6).xinj (grid1.coords t) j)) (0 : Fin 1))
      = dst1 V c (ix2 (Cert.Spec.row (((cfg1.win 6).blk t).view.emb j)) (0 : Fin 1)) := by
    show dst1 V c (((cfg1.win 1).blk t).view.emb (ix2 (Cert.Spec.row ((win1 6).xinj (grid1.coords t) j)) (0 : Fin 1))) = _
    refine congrArg (dst1 V c) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 1 + 1 * 0 = 0; omega
  have h2 : (iblk1 V c 2 t : Cert.Spec.Mat 5000 1) (ix2 (Cert.Spec.row ((win1 6).xinj (grid1.coords t) j)) (0 : Fin 1))
      = src1 V c (ix2 (Cert.Spec.row (((cfg1.win 6).blk t).view.emb j)) (0 : Fin 1)) := by
    show src1 V c (((cfg1.win 2).blk t).view.emb (ix2 (Cert.Spec.row ((win1 6).xinj (grid1.coords t) j)) (0 : Fin 1))) = _
    refine congrArg (src1 V c) (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 1 + 1 * 0 = 0; omega
  have h3 : ∀ k q : Fin 128, (iblk1 V c 3 t : Cert.Spec.Mat 128 128) (ix2 q k) = wts1 V c (ix2 q k) := fun k q => by
    show wts1 V c (((cfg1.win 3).blk t).view.emb (ix2 q k)) = _
    refine congrArg (wts1 V c) (funext fun a => Fin.ext ?_)
    match a with
    | ⟨0, _⟩ => show win1_3.index t (0 : Fin 2) * 128 + 1 * q.val = q.val; omega
    | ⟨1, _⟩ => show win1_3.index t (1 : Fin 2) * 128 + 1 * k.val = k.val; omega
  have h4 : ∀ k : Fin 128, (iblk1 V c 4 t : Cert.Spec.Mat 1 128) (ix2 (0 : Fin 1) k) = bias1 V c (ix2 (0 : Fin 1) k) := fun k => by
    show bias1 V c (((cfg1.win 4).blk t).view.emb (ix2 (0 : Fin 1) k)) = _
    refine congrArg (bias1 V c) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, (iblk1 V c 5 t : Cert.Spec.Mat 128 64) (ix2 k (Cert.Spec.col ((win1 6).xinj (grid1.coords t) j)))
      = nxt1 V c (ix2 k (Cert.Spec.col (((cfg1.win 6).blk t).view.emb j))) := fun k => by
    show nxt1 V c (((cfg1.win 5).blk t).view.emb (ix2 k (Cert.Spec.col ((win1 6).xinj (grid1.coords t) j)))) = _
    refine congrArg (nxt1 V c) (funext fun a => Fin.ext ?_)
    match a with
    | ⟨0, _⟩ => show win1_5.index t (0 : Fin 2) * 128 + 1 * k.val = k.val; omega
    | ⟨1, _⟩ => show win1_5.index t (1 : Fin 2) * 64 + 1 * (j 1).val = win1_6.index t (1 : Fin 2) * 64 + 1 * (j 1).val; omega
  refine Finset.sum_congr rfl fun k _ => ?_
  exact congrArg₂ (fun a b : EReal => a * b)
    (congrArg₂ (fun a b : EReal => a * b)
      (dense_of_block (n := 50000) (m := 5000) (k := 128) (c := 128) (agg1 V c) (dst1 V c) (wts1 V c) (bias1 V c)
        (iblk1 V c 0 t) (iblk1 V c 1 t) (iblk1 V c 3 t) (iblk1 V c 4 t) _ _ k k h0 h1 (h3 k) (h4 k)) h2) (h5 k)

/-- An index of the output array is in point `t`'s block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v41).slice (win1_6.rect t)).set ↔ _
  rw [View.set_slice_whole, Rect.mem_set_unit]
  exact Iff.rfl

/-- Every row of the output lies in the block of the point numbered by its row divided by the block height. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, -, -, e60, e61⟩ := idx_facts1 t
  have ht : (t : ℕ) = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The second region leaves its output array at `layerB` of its input arrays as it found them. -/
theorem final1 : (dat1 (F := Ideal) V c).arrAt 6 cfg1.N
    = Cert.Spec.layerB (V c main_v39) (V c main_v12) (V c main_v10) (V c main_arg5) (V c main_v40) (V c main_arg7) :=
  (dat1 (F := Ideal) V c).arrAt_eq_of_cover 6
    (Cert.Spec.layerB (agg1 V c) (dst1 V c) (src1 V c) (wts1 V c) (bias1 V c) (nxt1 V c))
    (fun t _ => flushed1_eq V c t) cover1

end Cert.KernelIdeal.Regions
end
-- ==== Proof.Region2.lean ====
/-
  The third pipelined region as a whole-array function.

  The region walks the 50000 rows of its output in ten blocks of 5000 rows. At each block the body reads the
  matching block of the aggregate A and of the degree column d, and the whole bias row b, and stores
  max (A ⊙ d + b, 0) into the output block. Entry by entry that is `Cert.Spec.layerC` of the three arrays as the
  region finds them, whatever they hold: first the body's value at an entry of a block (`pay2_apply`), then the block a
  point writes back as the block of `layerC` (`flushed2_eq`: an entry (p, q) of block t is entry (5000 t + p, q) of
  each row-blocked array), then the blocks cover the array (row r lies in block r / 5000), so the array ends at `layerC`.
-/
import proofs.«127091_j29257317220561_2_alg».proof.Proof.Gen.KernelIdeal.Frame
import proofs.«127091_j29257317220561_2_alg».proof.Proof.Spec
import proofs.«127091_j29257317220561_2_alg».proof.Proof.LibColumnBlocks
import proofs.«127091_j29257317220561_2_alg».proof.Proof.LibBlockRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.LibBlockRows

/-- The third region's payload at an entry. -/
theorem pay2_apply (x0 : Vec Ideal S5000x64 .f32) (x1 : Vec Ideal S5000x1 .f32) (x2 : Vec Ideal S1x64 .f32) (p : Fin 5000) (q : Fin 64) :
    k2_pay1 (F := Ideal) x0 x1 x2 (ix2 p q) = max (x0 (ix2 p q) * x1 (ix2 p (0 : Fin 1)) + x2 (ix2 (0 : Fin 1) q)) Cert.Spec.zeroW := by
  unfold k2_pay1
  simp only [shapeCast_self]
  show max (x0 (ix2 p q) * broadcastTo S5000x64 x1 broadcasts_S5000x1_S5000x64 (ix2 p q) + broadcastTo S5000x64 x2 broadcasts_S1x64_S5000x64 (ix2 p q)) _ = _
  rw [broadcastTo_a1_ab_apply x1, broadcastTo_1b_ab_apply x2]
  rfl

/-- The same at an index not yet split into its row and column. -/
theorem pay2_at (x0 : Vec Ideal S5000x64 .f32) (x1 : Vec Ideal S5000x1 .f32) (x2 : Vec Ideal S1x64 .f32) (j : S5000x64.Idx) :
    k2_pay1 (F := Ideal) x0 x1 x2 j = max (x0 j * x1 (ix2 (Cert.Spec.row j) (0 : Fin 1)) + x2 (ix2 (0 : Fin 1) (Cert.Spec.col j))) Cert.Spec.zeroW := by
  have h := pay2_apply x0 x1 x2 (Cert.Spec.row j) (Cert.Spec.col j)
  rwa [← Cert.Spec.eq_ix2_row_col j] at h

variable (V : (c : Dev nD) → (b : Ref sig .tc) → Buf (Elt Ideal) ((c : Thread nD τ).loc b)) (c : Dev nD)

/-- The region's input arrays as it finds them, at their literal types. -/
abbrev agg2 : Cert.Spec.Mat 50000 64 := V c main_v52
abbrev deg2 : Cert.Spec.Mat 50000 1 := V c main_v12
abbrev bias2 : Cert.Spec.Mat 1 64 := V c main_v53

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2_eq (t : Fin cfg2.N) :
    (dat2 (F := Ideal) V c).flushed 3 t = ((cfg2.win 3).blk t).view.read (Elt Ideal) (Cert.Spec.layerC (agg2 V c) (deg2 V c) (bias2 V c)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S5000x1) zero_offsets, View.ld_unit_zero (S := S1x64) zero_offsets]
  funext j
  obtain ⟨e00, e01, e10, e11, e20, e21, e30, e31⟩ := idx_facts2 t
  refine (pay2_at (iblk2 V c 0 t) (iblk2 V c 1 t) (iblk2 V c 2 t) ((win2 3).xinj (grid2.coords t) j)).trans ?_
  have hp : (j 0).val < 5000 := (j 0).isLt
  have hq : (j 1).val < 64 := (j 1).isLt
  show max (agg2 V c (((cfg2.win 0).blk t).view.emb ((win2 3).xinj (grid2.coords t) j))
        * deg2 V c (((cfg2.win 1).blk t).view.emb (ix2 (Cert.Spec.row ((win2 3).xinj (grid2.coords t) j)) (0 : Fin 1)))
        + bias2 V c (((cfg2.win 2).blk t).view.emb (ix2 (0 : Fin 1) (Cert.Spec.col ((win2 3).xinj (grid2.coords t) j))))) Cert.Spec.zeroW
      = Cert.Spec.layerC (agg2 V c) (deg2 V c) (bias2 V c) (((cfg2.win 3).blk t).view.emb j)
  have h0 : ((cfg2.win 0).blk t).view.emb ((win2 3).xinj (grid2.coords t) j) = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (Cert.Spec.row ((win2 3).xinj (grid2.coords t) j)) (0 : Fin 1))
      = ix2 (Cert.Spec.row (((cfg2.win 3).blk t).view.emb j)) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have h2 : ((cfg2.win 2).blk t).view.emb (ix2 (0 : Fin 1) (Cert.Spec.col ((win2 3).xinj (grid2.coords t) j)))
      = ix2 (0 : Fin 1) (Cert.Spec.col (((cfg2.win 3).blk t).view.emb j)) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [h0, h1, h2]
  rfl

/-- An index of the output array is in point `t`'s block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v54).slice (win2_3.rect t)).set ↔ _
  rw [View.set_slice_whole, Rect.mem_set_unit]
  exact Iff.rfl

/-- Every row of the output lies in the block of the point numbered by its row divided by the block height. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, e30, e31⟩ := idx_facts2 t
  have ht : (t : ℕ) = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The third region leaves its output array at `layerC` of its input arrays as it found them. -/
theorem final2 : (dat2 (F := Ideal) V c).arrAt 3 cfg2.N = Cert.Spec.layerC (V c main_v52) (V c main_v12) (V c main_v53) :=
  (dat2 (F := Ideal) V c).arrAt_eq_of_cover 3 (Cert.Spec.layerC (agg2 V c) (deg2 V c) (bias2 V c)) (fun t _ => flushed2_eq V c t) cover2

end Cert.KernelIdeal.Regions
end
-- ==== Proof.KernelValue.lean ====
/-
  The idealized kernel's result as one function of its argument arrays.

  The fold of buffer contents through the program is read at the result: the last region's output array is the
  third region's function of the aggregate of the second region's output, which is the second region's function
  of the aggregate of the first region's output, which is the first region's function of the aggregate of the
  features scaled by the source degree factor. Every array a region reads is found as the host operations (or
  an earlier region) left it; the degree factors, computed once before the first region, are read unchanged by
  all three.
-/
import proofs.«127091_j29257317220561_2_alg».proof.Proof.HostReads
import proofs.«127091_j29257317220561_2_alg».proof.Proof.Region0
import proofs.«127091_j29257317220561_2_alg».proof.Proof.Region1
import proofs.«127091_j29257317220561_2_alg».proof.Proof.Region2

set_option maxRecDepth 16384

noncomputable section

namespace Cert.KernelIdeal.Whole

open Cert.KernelIdeal Cert.KernelIdeal.Gen Cert.KernelIdeal.Regions
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## After the first region -/

/-- The first region's output: its function of the aggregated scaled features. -/
theorem w6_v28 : W6 m ρ c (Proc.devRef .tc main_v28) = (Cert.Spec.layerA (Host.agg128 (F := Ideal) (m ((c : Thread nD τ).loc main_arg1)) (m ((c : Thread nD τ).loc main_arg2)) (Host.scaled (F := Ideal) (m ((c : Thread nD τ).loc main_arg0)) (m ((c : Thread nD τ).loc main_arg1)))) (Host.fac (F := Ideal) (m ((c : Thread nD τ).loc main_arg2))) (Host.fac (F := Ideal) (m ((c : Thread nD τ).loc main_arg1))) (m ((c : Thread nD τ).loc main_arg3)) (Host.biasRow128 (F := Ideal) (m ((c : Thread nD τ).loc main_arg4)))) := by
  have h26 : V5 m ρ c main_v26 = _ := Host.r5_v26 m ρ c
  have h12 : V5 m ρ c main_v12 = _ := Host.r5_v12 m ρ c
  have h10 : V5 m ρ c main_v10 = _ := Host.r5_v10 m ρ c
  have h3 : V5 m ρ c main_arg3 = _ := Host.r5_arg3 m ρ c
  have h27 : V5 m ρ c main_v27 = _ := Host.r5_v27 m ρ c
  refine (W6_arr m ρ c 5).trans ((final0 (V5 m ρ) c).trans ?_)
  rw [h26, h12, h10, h3, h27]

theorem w6_v12 : W6 m ρ c (Proc.devRef .tc main_v12) = Host.fac (F := Ideal) (m ((c : Thread nD τ).loc main_arg2)) :=
  (W6_arr m ρ c 1).trans (((dat0 (V5 m ρ) c).arrAt_in 1 rfl _).trans ((A_eq0 (V5 m ρ) c 1).trans (Host.r5_v12 m ρ c)))

theorem w6_v10 : W6 m ρ c (Proc.devRef .tc main_v10) = Host.fac (F := Ideal) (m ((c : Thread nD τ).loc main_arg1)) :=
  (W6_arr m ρ c 2).trans (((dat0 (V5 m ρ) c).arrAt_in 2 rfl _).trans ((A_eq0 (V5 m ρ) c 2).trans (Host.r5_v10 m ρ c)))

theorem w6_arg1 : W6 m ρ c (Proc.devRef .tc main_arg1) = (m ((c : Thread nD τ).loc main_arg1)) :=
  (W6_of_ne m ρ c main_arg1 (by decide)).trans (Host.r5_arg1 m ρ c)
theorem w6_arg2 : W6 m ρ c (Proc.devRef .tc main_arg2) = (m ((c : Thread nD τ).loc main_arg2)) :=
  (W6_of_ne m ρ c main_arg2 (by decide)).trans (Host.r5_arg2 m ρ c)
theorem w6_arg5 : W6 m ρ c (Proc.devRef .tc main_arg5) = (m ((c : Thread nD τ).loc main_arg5)) :=
  (W6_of_ne m ρ c main_arg5 (by decide)).trans (Host.r5_arg5 m ρ c)
theorem w6_arg6 : W6 m ρ c (Proc.devRef .tc main_arg6) = (m ((c : Thread nD τ).loc main_arg6)) :=
  (W6_of_ne m ρ c main_arg6 (by decide)).trans (Host.r5_arg6 m ρ c)
theorem w6_arg7 : W6 m ρ c (Proc.devRef .tc main_arg7) = (m ((c : Thread nD τ).loc main_arg7)) :=
  (W6_of_ne m ρ c main_arg7 (by decide)).trans (Host.r5_arg7 m ρ c)
theorem w6_arg8 : W6 m ρ c (Proc.devRef .tc main_arg8) = (m ((c : Thread nD τ).loc main_arg8)) :=
  (W6_of_ne m ρ c main_arg8 (by decide)).trans (Host.r5_arg8 m ρ c)

/-! ## After the second region -/

/-- The second region's output: its function of the aggregate of the first region's output. -/
def out1 : Cert.Spec.Mat 50000 64 :=
  Cert.Spec.layerB (Host.agg128 (F := Ideal) (m ((c : Thread nD τ).loc main_arg1)) (m ((c : Thread nD τ).loc main_arg2)) (Cert.Spec.layerA (Host.agg128 (F := Ideal) (m ((c : Thread nD τ).loc main_arg1)) (m ((c : Thread nD τ).loc main_arg2)) (Host.scaled (F := Ideal) (m ((c : Thread nD τ).loc main_arg0)) (m ((c : Thread nD τ).loc main_arg1)))) (Host.fac (F := Ideal) (m ((c : Thread nD τ).loc main_arg2))) (Host.fac (F := Ideal) (m ((c : Thread nD τ).loc main_arg1))) (m ((c : Thread nD τ).loc main_arg3)) (Host.biasRow128 (F := Ideal) (m ((c : Thread nD τ).loc main_arg4))))) (Host.fac (F := Ideal) (m ((c : Thread nD τ).loc main_arg2))) (Host.fac (F := Ideal) (m ((c : Thread nD τ).loc main_arg1))) (m ((c : Thread nD τ).loc main_arg5)) (Host.biasRow128 (F := Ideal) (m ((c : Thread nD τ).loc main_arg6))) (m ((c : Thread nD τ).loc main_arg7))

theorem w7_v39 : W7 m ρ c (Proc.devRef .tc main_v39) = Host.agg128 (F := Ideal) (m ((c : Thread nD τ).loc main_arg1)) (m ((c : Thread nD τ).loc main_arg2)) (Cert.Spec.layerA (Host.agg128 (F := Ideal) (m ((c : Thread nD τ).loc main_arg1)) (m ((c : Thread nD τ).loc main_arg2)) (Host.scaled (F := Ideal) (m ((c : Thread nD τ).loc main_arg0)) (m ((c : Thread nD τ).loc main_arg1)))) (Host.fac (F := Ideal) (m ((c : Thread nD τ).loc main_arg2))) (Host.fac (F := Ideal) (m ((c : Thread nD τ).loc main_arg1))) (m ((c : Thread nD τ).loc main_arg3)) (Host.biasRow128 (F := Ideal) (m ((c : Thread nD τ).loc main_arg4)))) := by
  rw [Host.r7_v39, w6_arg1, w6_arg2, w6_v28]

theorem w7_v40 : W7 m ρ c (Proc.devRef .tc main_v40) = Host.biasRow128 (F := Ideal) (m ((c : Thread nD τ).loc main_arg6)) := by
  rw [Host.r7_v40, w6_arg6]

theorem w7_v12 : W7 m ρ c (Proc.devRef .tc main_v12) = Host.fac (F := Ideal) (m ((c : Thread nD τ).loc main_arg2)) := (Host.r7_v12 m ρ c).trans (w6_v12 m ρ c)
theorem w7_v10 : W7 m ρ c (Proc.devRef .tc main_v10) = Host.fac (F := Ideal) (m ((c : Thread nD τ).loc main_arg1)) := (Host.r7_v10 m ρ c).trans (w6_v10 m ρ c)
theorem w7_arg1 : W7 m ρ c (Proc.devRef .tc main_arg1) = (m ((c : Thread nD τ).loc main_arg1)) := (Host.r7_arg1 m ρ c).trans (w6_arg1 m ρ c)
theorem w7_arg2 : W7 m ρ c (Proc.devRef .tc main_arg2) = (m ((c : Thread nD τ).loc main_arg2)) := (Host.r7_arg2 m ρ c).trans (w6_arg2 m ρ c)
theorem w7_arg5 : W7 m ρ c (Proc.devRef .tc main_arg5) = (m ((c : Thread nD τ).loc main_arg5)) := (Host.r7_arg5 m ρ c).trans (w6_arg5 m ρ c)
theorem w7_arg7 : W7 m ρ c (Proc.devRef .tc main_arg7) = (m ((c : Thread nD τ).loc main_arg7)) := (Host.r7_arg7 m ρ c).trans (w6_arg7 m ρ c)
theorem w7_arg8 : W7 m ρ c (Proc.devRef .tc main_arg8) = (m ((c : Thread nD τ).loc main_arg8)) := (Host.r7_arg8 m ρ c).trans (w6_arg8 m ρ c)

theorem w8_v41 : W8 m ρ c (Proc.devRef .tc main_v41) = out1 m c := by
  have h39 : V7 m ρ c main_v39 = _ := w7_v39 m ρ c
  have h12 : V7 m ρ c main_v12 = _ := w7_v12 m ρ c
  have h10 : V7 m ρ c main_v10 = _ := w7_v10 m ρ c
  have h5 : V7 m ρ c main_arg5 = _ := w7_arg5 m ρ c
  have h40 : V7 m ρ c main_v40 = _ := w7_v40 m ρ c
  have h7 : V7 m ρ c main_arg7 = _ := w7_arg7 m ρ c
  refine (W8_arr m ρ c 6).trans ((final1 (V7 m ρ) c).trans ?_)
  rw [h39, h12, h10, h5, h40, h7]
  rfl

theorem w8_v12 : W8 m ρ c (Proc.devRef .tc main_v12) = Host.fac (F := Ideal) (m ((c : Thread nD τ).loc main_arg2)) :=
  (W8_arr m ρ c 1).trans (((dat1 (V7 m ρ) c).arrAt_in 1 rfl _).trans ((A_eq1 (V7 m ρ) c 1).trans (w7_v12 m ρ c)))

theorem w8_arg1 : W8 m ρ c (Proc.devRef .tc main_arg1) = (m ((c : Thread nD τ).loc main_arg1)) :=
  (W8_of_ne m ρ c main_arg1 (by decide)).trans (w7_arg1 m ρ c)
theorem w8_arg2 : W8 m ρ c (Proc.devRef .tc main_arg2) = (m ((c : Thread nD τ).loc main_arg2)) :=
  (W8_of_ne m ρ c main_arg2 (by decide)).trans (w7_arg2 m ρ c)
theorem w8_arg8 : W8 m ρ c (Proc.devRef .tc main_arg8) = (m ((c : Thread nD τ).loc main_arg8)) :=
  (W8_of_ne m ρ c main_arg8 (by decide)).trans (w7_arg8 m ρ c)

/-! ## The result -/

/-- The kernel's result: the third region's function of the aggregate of the second region's output. -/
def result : Cert.Spec.Mat 50000 64 :=
  Cert.Spec.layerC (Host.agg64 (F := Ideal) (m ((c : Thread nD τ).loc main_arg1)) (m ((c : Thread nD τ).loc main_arg2)) (out1 m c)) (Host.fac (F := Ideal) (m ((c : Thread nD τ).loc main_arg2))) (Host.biasRow64 (F := Ideal) (m ((c : Thread nD τ).loc main_arg8)))

theorem w9_v52 : W9 m ρ c (Proc.devRef .tc main_v52) = Host.agg64 (F := Ideal) (m ((c : Thread nD τ).loc main_arg1)) (m ((c : Thread nD τ).loc main_arg2)) (out1 m c) := by
  rw [Host.r9_v52, w8_arg1, w8_arg2, w8_v41]

theorem w9_v53 : W9 m ρ c (Proc.devRef .tc main_v53) = Host.biasRow64 (F := Ideal) (m ((c : Thread nD τ).loc main_arg8)) := by
  rw [Host.r9_v53, w8_arg8]

theorem w9_v12 : W9 m ρ c (Proc.devRef .tc main_v12) = Host.fac (F := Ideal) (m ((c : Thread nD τ).loc main_arg2)) := (Host.r9_v12 m ρ c).trans (w8_v12 m ρ c)

/-- THE RESULT BUFFER at the end of the run. -/
theorem w10_v54 : W10 m ρ c (Proc.devRef .tc main_v54) = result m c := by
  have h52 : V9 m ρ c main_v52 = _ := w9_v52 m ρ c
  have h12 : V9 m ρ c main_v12 = _ := w9_v12 m ρ c
  have h53 : V9 m ρ c main_v53 = _ := w9_v53 m ρ c
  refine (W10_arr m ρ c 3).trans ((final2 (V9 m ρ) c).trans ?_)
  rw [h52, h12, h53]
  rfl

end Cert.KernelIdeal.Whole

end
-- ==== Proof.LibColumnOps.lean ====
/-
  Columns and vectors read at coordinates.

  A vector of A entries and an A × 1 column hold the same numbers: the cast of one to the other, either way, and the
  broadcast_in_dim [A] → [A, 1] along axis 0, read at row a, are the vector at a (the column at (a, 0)). A scalar broadcast to any shape is the scalar everywhere.
  Column k of an A × B matrix, sliced out and recast as a vector, is the matrix at (a, k).
  Six A × 1 columns laid side by side (concatenate, axis 1) form an A × 6 matrix whose entry (a, k) is column k at
  (a, 0); two such columns form an A × 2 matrix likewise.
  A point gather — operand [N, C], start indices [R, 2], both operand axes collapsed, slices of one element — reads at e
  the operand at (row, column), the two components of start index e read signed and clamped into the operand's extents.
  Every statement is over arbitrary extents and spells indices by their coordinates.
-/
import Idealize.ShloMosaic.Lib.ValueIdx
import Idealize.ShloMosaic.Lib.Pipeline.Value

noncomputable section

namespace Cert.LibColumnOps

open Idealize.ShloMosaic Idealize.ShloMosaic.ValueIdx

variable {α : Type}

/-- The one column index. -/
abbrev z1 : Fin 1 := ⟨0, Nat.one_pos⟩

/-- A vector recast as a column, at (a, z): the vector at a. -/
theorem col_of_vec {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have hz : z.val = 0 := by have := z.isLt; omega
  rw [hz]; omega

/-- A column recast as a vector, at a: the column at (a, 0). -/
theorem vec_of_col {A : ℕ} (x : (⟨2, ![A, 1]⟩ : Shape).Idx → α)
    (h : (⟨2, ![A, 1]⟩ : Shape).ShapeCasts ⟨1, ![A]⟩) (a : Fin A) :
    shapeCast ⟨1, ![A]⟩ x h (ix1 a) = x (ix2 a z1) := by
  refine shapeCast_apply x h _ _ ?_
  rw [Shape.rowMajor_val_one, Shape.rowMajor_val_two]
  show a.val * 1 + 0 = a.val
  omega

/-- Column k of a matrix, cut out as an A × 1 slice and recast as a vector, at a: the matrix at (a, k). -/
theorem col_vec {A B : ℕ} (off : ℕ) (M : (⟨2, ![A, B]⟩ : Shape).Idx → α)
    (h : (⟨2, ![A, B]⟩ : Shape).Slices ![0, off] ⟨2, ![A, 1]⟩) (h' : (⟨2, ![A, 1]⟩ : Shape).ShapeCasts ⟨1, ![A]⟩)
    (a : Fin A) (k : Fin B) (hk : k.val = off) :
    shapeCast ⟨1, ![A]⟩ (extractStridedSlice ⟨2, ![A, 1]⟩ ![0, off] M h) h' (ix1 a) = M (ix2 a k) :=
  (vec_of_col _ h' a).trans (extractStridedSlice_apply ![0, off] M h (ix2 a z1) (ix2 a k) fun d => by
    match d with
    | ⟨0, _⟩ => show a.val = 0 + a.val; omega
    | ⟨1, _⟩ => show k.val = off + 0; omega)

/-- A vector broadcast along axis 0 into a column, at (a, z): the vector at a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    by_cases hA : A = 1
    · rw [if_pos hA]; have := a.isLt; omega
    · rw [if_neg hA]

/-- A scalar broadcast to any shape, at any index: the scalar. -/
theorem bcast_scalar {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun a => a.elim0

/-- Column k of six side by side, at (a, k). -/
theorem cols6_apply {A : ℕ} (x : Fin 6 → (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x 0⟩, ⟨⟨2, ![A, 1]⟩, x 1⟩, ⟨⟨2, ![A, 1]⟩, x 2⟩, ⟨⟨2, ![A, 1]⟩, x 3⟩,
      ⟨⟨2, ![A, 1]⟩, x 4⟩, ⟨⟨2, ![A, 1]⟩, x 5⟩] h (ix2 a k) = x k (ix2 a z1) := by
  have hi : ∀ (k' : Fin 6) (b : Fin 2), b.cast rfl ≠ (1 : Fin 2) → ((ix2 a z1 : (⟨2, ![A, 1]⟩ : Shape).Idx) b).val
      = ((ix2 a k' : (⟨2, ![A, 6]⟩ : Shape).Idx) (b.cast rfl)).val := fun k' b hb => by
    match b with
    | ⟨0, _⟩ => rfl
    | ⟨1, _⟩ => exact absurd rfl hb
  have go : ∀ (n : Nat) (hn : n < 6), concatenate ⟨2, ![A, 6]⟩ 1 [⟨⟨2, ![A, 1]⟩, x 0⟩, ⟨⟨2, ![A, 1]⟩, x 1⟩, ⟨⟨2, ![A, 1]⟩, x 2⟩,
      ⟨⟨2, ![A, 1]⟩, x 3⟩, ⟨⟨2, ![A, 1]⟩, x 4⟩, ⟨⟨2, ![A, 1]⟩, x 5⟩] h (ix2 a ⟨n, hn⟩) = x ⟨n, hn⟩ (ix2 a z1) := fun n hn =>
    concatenate_apply_piece (t := ⟨2, ![A, 6]⟩) 1
      [⟨⟨2, ![A, 1]⟩, x 0⟩, ⟨⟨2, ![A, 1]⟩, x 1⟩, ⟨⟨2, ![A, 1]⟩, x 2⟩, ⟨⟨2, ![A, 1]⟩, x 3⟩, ⟨⟨2, ![A, 1]⟩, x 4⟩, ⟨⟨2, ![A, 1]⟩, x 5⟩]
      h (ix2 a ⟨n, hn⟩) n hn ⟨2, ![A, 1]⟩ (x ⟨n, hn⟩)
      (by
        match n, hn with
        | 0, _ => rfl
        | 1, _ => rfl
        | 2, _ => rfl
        | 3, _ => rfl
        | 4, _ => rfl
        | 5, _ => rfl)
      rfl n
      (by
        match n, hn with
        | 0, _ => rfl
        | 1, _ => rfl
        | 2, _ => rfl
        | 3, _ => rfl
        | 4, _ => rfl
        | 5, _ => rfl)
      (ix2 a z1) (hi ⟨n, hn⟩) (Nat.add_zero n)
  exact go k.val k.isLt

/-- One of six things, by position. -/
def pick6 {β : Type} (y0 y1 y2 y3 y4 y5 : β) : Fin 6 → β
  | ⟨0, _⟩ => y0 | ⟨1, _⟩ => y1 | ⟨2, _⟩ => y2 | ⟨3, _⟩ => y3 | ⟨4, _⟩ => y4 | ⟨5, _⟩ => y5

/-- Six named columns side by side, at (a, k): the k-th of them at (a, 0). -/
theorem cols6_pick {A : ℕ} (x0 x1 x2 x3 x4 x5 : (⟨2, ![A, 1]⟩ : Shape).Idx → α)
    (h : Shape.Concatenates [⟨2, ![A, 1]⟩, ⟨2, ![A, 1]⟩, ⟨2, ![A, 1]⟩, ⟨2, ![A, 1]⟩, ⟨2, ![A, 1]⟩, ⟨2, ![A, 1]⟩] ⟨2, ![A, 6]⟩ 1)
    (a : Fin A) (k : Fin 6) :
    concatenate ⟨2, ![A, 6]⟩ 1 [⟨⟨2, ![A, 1]⟩, x0⟩, ⟨⟨2, ![A, 1]⟩, x1⟩, ⟨⟨2, ![A, 1]⟩, x2⟩, ⟨⟨2, ![A, 1]⟩, x3⟩,
      ⟨⟨2, ![A, 1]⟩, x4⟩, ⟨⟨2, ![A, 1]⟩, x5⟩] h (ix2 a k) = pick6 x0 x1 x2 x3 x4 x5 k (ix2 a z1) :=
  cols6_apply (pick6 x0 x1 x2 x3 x4 x5) h a k

/-- The left of two columns side by side, at (a, 0). -/
theorem cols2_left {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (0 : Fin 2)) = x₁ (ix2 a z1) :=
  concatenate_pair_apply_left 1 x₁ x₂ h _ rfl (ix2 a z1) fun b => by
    match b with
    | ⟨0, _⟩ => rfl
    | ⟨1, _⟩ => rfl

/-- The right of two columns side by side, at (a, 1). -/
theorem cols2_right {A : ℕ} (x₁ x₂ : (⟨2, ![A, 1]⟩ : Shape).Idx → α)
    (h : Shape.Concatenates [⟨2, ![A, 1]⟩, ⟨2, ![A, 1]⟩] ⟨2, ![A, 2]⟩ 1) (a : Fin A) :
    concatenate ⟨2, ![A, 2]⟩ 1 [⟨⟨2, ![A, 1]⟩, x₁⟩, ⟨⟨2, ![A, 1]⟩, x₂⟩] h (ix2 a (1 : Fin 2)) = x₂ (ix2 a z1) :=
  concatenate_pair_apply_right 1 x₁ x₂ h _ rfl rfl (ix2 a z1)
    (fun b hb => by
      match b with
      | ⟨0, _⟩ => rfl
      | ⟨1, _⟩ => exact absurd rfl hb)
    rfl

/-! ## The point gather -/

/-- The dimension numbers of a point gather: operand [N, C], start indices [R, 2], result [R]. -/
abbrev pointDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- A start-index component, read signed and clamped into an axis of extent n. -/
def clampTo {w : Nat} (n : Nat) (hn : 0 < n) (v : BitVec w) : Fin n := ⟨min v.toInt.toNat (n - 1), by omega⟩

/-- THE POINT GATHER READ AT e: the operand at the clamped (row, column) start index e holds. -/
theorem gather_points_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (pointDims N C R wf) x idx (ix1 e)
      = x (ix2 (clampTo N hN (idx (ix2 e (0 : Fin 2)))) (clampTo C hC (idx (ix2 e (1 : Fin 2))))) := by
  unfold Host.gather
  refine congrArg x ?_
  funext a
  refine Fin.ext ?_
  show (pointDims N C R wf).start (ix1 e) idx a + (pointDims N C R wf).batchCoord (ix1 e) a
      + (pointDims N C R wf).offCoord (ix1 e) a = _
  rw [GatherDims.batchCoord_eq_zero _ _ _ List.not_mem_nil, Nat.add_zero]
  match a with
  | ⟨0, _⟩ =>
    show (pointDims N C R wf).start (ix1 e) idx (0 : Fin 2) + (pointDims N C R wf).offCoord (ix1 e) (0 : Fin 2)
      = (clampTo N hN (idx (ix2 e (0 : Fin 2)))).val
    rw [GatherDims.offCoord_eq_zero _ _ _
      (fun h => ((GatherDims.mem_sKept _ _).mp h).1 (List.mem_cons_self)), Nat.add_zero]
    unfold GatherDims.start
    rw [dif_pos (show (0 : Fin 2) ∈ (pointDims N C R wf).startIndexMap from List.mem_cons_self)]
    have hsi : (pointDims N C R wf).siIdx (ix1 e) ⟨List.idxOf (0 : Fin 2) (pointDims N C R wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  | ⟨1, _⟩ =>
    show (pointDims N C R wf).start (ix1 e) idx (1 : Fin 2) + (pointDims N C R wf).offCoord (ix1 e) (1 : Fin 2)
      = (clampTo C hC (idx (ix2 e (1 : Fin 2)))).val
    rw [GatherDims.offCoord_eq_zero _ _ _
      (fun h => ((GatherDims.mem_sKept _ _).mp h).1 (List.mem_cons_of_mem _ List.mem_cons_self)), Nat.add_zero]
    unfold GatherDims.start
    rw [dif_pos (show (1 : Fin 2) ∈ (pointDims N C R wf).startIndexMap from List.mem_cons_of_mem _ List.mem_cons_self)]
    have hsi : (pointDims N C R wf).siIdx (ix1 e) ⟨List.idxOf (1 : Fin 2) (pointDims N C R wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    rfl

end Cert.LibColumnOps

end
-- ==== Proof.Bridge1.lean ====
/-
  The host-side arrays of the two programs are the same arrays.

  The kernel and the reference compute the degree factors, the bias rows and the aggregation with the same
  operations up to layout: the kernel reshapes a vector of n entries into a column where the reference broadcasts
  it along a new unit axis, and carries its features through the aggregation in a narrower float format (a change
  of format is the identity on the extended reals). Entry by entry these are the same arrays.
-/
import proofs.«127091_j29257317220561_2_alg».proof.Proof.HostReads
import proofs.«127091_j29257317220561_2_alg».proof.Proof.Gen.ReferenceIdeal.Read
import proofs.«127091_j29257317220561_2_alg».proof.Proof.LibColumnOps
import Idealize.ShloMosaic.Lib.ValueLayout
import Idealize.ShloMosaic.PureOps.Ideal

noncomputable section

namespace Cert.Bridge

open Idealize.ShloMosaic Idealize.ShloMosaic.ValueIdx
open Cert.ReferenceIdeal.Read

/-- The reference's aggregation of 128-wide features, as printed. -/
def aggR (x1 x2 : (⟨Cert.ReferenceIdeal.S800000, .i32⟩ : BufTy).Contents (Elt Ideal))
    (h : (⟨Cert.ReferenceIdeal.S50000x128, .f32⟩ : BufTy).Contents (Elt Ideal)) : (⟨Cert.ReferenceIdeal.S50000x128, .f32⟩ : BufTy).Contents (Elt Ideal) :=
  Host.scatterAdd (F := Ideal) (φ := .f32) Cert.ReferenceIdeal.scatter_S50000x128_S800000x1_S800000x128_1_0_0_1 (val_main_v21 (F := Ideal)) (val_main_v22 (F := Ideal) x2)
    (Host.gather Cert.ReferenceIdeal.gather_S50000x128_S800000x1_S800000x128_1_0_n_n_0_1_1128 h (val_main_v19 (F := Ideal) x1))

section
variable (x0 : (⟨Cert.ReferenceIdeal.S50000x128, .f32⟩ : BufTy).Contents (Elt Ideal)) (x1 x2 : (⟨Cert.ReferenceIdeal.S800000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal))
  (x5 : (⟨Cert.ReferenceIdeal.S128x128, .f32⟩ : BufTy).Contents (Elt Ideal)) (x6 : (⟨Cert.ReferenceIdeal.S128, .f32⟩ : BufTy).Contents (Elt Ideal))

/-- The reference's three aggregations are that one map, of its three successive feature arrays. -/
theorem v23_eq : val_main_v23 (F := Ideal) x0 x1 x2 = aggR x1 x2 (val_main_v13 (F := Ideal) x0 x1) := rfl
theorem v56_eq : val_main_v56 (F := Ideal) x0 x1 x2 x3 x4 = aggR x1 x2 (val_main_v46 (F := Ideal) x0 x1 x2 x3 x4) := rfl
theorem v89_eq : val_main_v89 (F := Ideal) x0 x1 x2 x3 x4 x5 x6 = aggR x1 x2 (val_main_v79 (F := Ideal) x0 x1 x2 x3 x4 x5 x6) := rfl
end

open Cert.KernelIdeal in
/-- The kernel's aggregation of 128-wide features is the reference's. -/
theorem agg128_eq (a1 a2 : IVec Cert.KernelIdeal.S800000 32) (h : FVec Ideal Cert.KernelIdeal.S50000x128 .bf16) :
    Cert.KernelIdeal.Host.agg128 (F := Ideal) a1 a2 h = aggR a1 a2 h := rfl

/-- The kernel's degree column (a reshape) is the reference's source-degree column (a broadcast). -/
theorem fac_eq_v11 (a : IVec Cert.KernelIdeal.S800000 32) : Cert.KernelIdeal.Host.fac (F := Ideal) a = val_main_v11 (F := Ideal) a := by
  funext j
  obtain ⟨r, z, rfl⟩ : ∃ (r : Fin 50000) (z : Fin 1), j = ix2 r z := ⟨j 0, j 1, eq_ix2 j⟩
  have hk : Cert.KernelIdeal.Host.fac (F := Ideal) a (ix2 r z) = Host.rsqrt (Cert.KernelIdeal.Host.deg (F := Ideal) a) (ix1 r) := Cert.LibColumnOps.col_of_vec _ _ r z
  have hr : val_main_v11 (F := Ideal) a (ix2 r z) = val_main_v10 (F := Ideal) a (ix1 r) := Cert.LibColumnOps.bcast_col _ _ r z
  rw [hk, hr]
  rfl

/-- The same column is the reference's destination-degree column, of the other edge list. -/
theorem fac_eq_v25 (a : IVec Cert.KernelIdeal.S800000 32) : Cert.KernelIdeal.Host.fac (F := Ideal) a = val_main_v25 (F := Ideal) a := by
  funext j
  obtain ⟨r, z, rfl⟩ : ∃ (r : Fin 50000) (z : Fin 1), j = ix2 r z := ⟨j 0, j 1, eq_ix2 j⟩
  have hk : Cert.KernelIdeal.Host.fac (F := Ideal) a (ix2 r z) = Host.rsqrt (Cert.KernelIdeal.Host.deg (F := Ideal) a) (ix1 r) := Cert.LibColumnOps.col_of_vec _ _ r z
  have hr : val_main_v25 (F := Ideal) a (ix2 r z) = val_main_v24 (F := Ideal) a (ix1 r) := Cert.LibColumnOps.bcast_col _ _ r z
  rw [hk, hr]
  rfl

/-- A change of float format is the identity on the extended reals. -/
theorem truncf_id {s : Shape} (X : FVec Ideal s .f32) (h : FTy.bf16.bits < FTy.f32.bits) :
    (truncf .bf16 X h : s.Idx → EReal) = X := funext fun i => truncf_apply X h i

/-- The two programs' row-factor broadcasts agree, for any column. -/
theorem scale_any (a0 : FVec Ideal Cert.KernelIdeal.S50000x128 .f32) (Y : FVec Ideal Cert.KernelIdeal.S50000x1 .f32) :
    (mulf a0 (broadcastInDim Cert.KernelIdeal.S50000x128 ![0, 1] Cert.KernelIdeal.Facts₀.bcast_S50000x1_S50000x128_0_1 Y) : Cert.KernelIdeal.S50000x128.Idx → EReal)
      = mulf (F := Ideal) (φ := .f32) a0 (broadcastInDim Cert.ReferenceIdeal.S50000x128 ![0, 1] Cert.ReferenceIdeal.Facts₀.bcast_S50000x1_S50000x128_0_1 Y) := rfl

/-- The scaled input features. -/
theorem scaled_eq (a0 : FVec Ideal Cert.KernelIdeal.S50000x128 .f32) (a1 : IVec Cert.KernelIdeal.S800000 32) :
    Cert.KernelIdeal.Host.scaled (F := Ideal) a0 a1 = val_main_v13 (F := Ideal) a0 a1 := by
  unfold Cert.KernelIdeal.Host.scaled
  rw [fac_eq_v11]
  unfold val_main_v13 val_main_v12
  exact (truncf_id _ _).trans (scale_any a0 _)

/-- A bias vector as a row: the kernel's reshape is the reference's broadcast. -/
theorem biasRow128_eq (b : FVec Ideal Cert.KernelIdeal.S128 .f32) : Cert.KernelIdeal.Host.biasRow128 (F := Ideal) b = val_main_v29 (F := Ideal) b := by
  funext j
  obtain ⟨u, q, rfl⟩ : ∃ (u : Fin 1) (q : Fin 128), j = ix2 u q := ⟨j 0, j 1, eq_ix2 j⟩
  have hk : Cert.KernelIdeal.Host.biasRow128 (F := Ideal) b (ix2 u q) = b (ix1 q) := shapeCast_a_1a_apply b _ u q
  have hr : val_main_v29 (F := Ideal) b (ix2 u q) = b (ix1 q) :=
    (val_main_v29_apply (F := Ideal) b (ix2 u q)).trans (congrArg b (funext fun a => by
      match a with
      | ⟨0, _⟩ => rfl))
  rw [hk, hr]

theorem v62_eq (b : (⟨Cert.ReferenceIdeal.S128, .f32⟩ : BufTy).Contents (Elt Ideal)) : val_main_v62 (F := Ideal) b = val_main_v29 (F := Ideal) b := rfl

theorem biasRow64_eq (b : FVec Ideal Cert.KernelIdeal.S64 .f32) : Cert.KernelIdeal.Host.biasRow64 (F := Ideal) b = val_main_v95 (F := Ideal) b := by
  funext j
  obtain ⟨u, q, rfl⟩ : ∃ (u : Fin 1) (q : Fin 64), j = ix2 u q := ⟨j 0, j 1, eq_ix2 j⟩
  have hk : Cert.KernelIdeal.Host.biasRow64 (F := Ideal) b (ix2 u q) = b (ix1 q) := shapeCast_a_1a_apply b _ u q
  have hr : val_main_v95 (F := Ideal) b (ix2 u q) = b (ix1 q) :=
    (val_main_v95_apply (F := Ideal) b (ix2 u q)).trans (congrArg b (funext fun a => by
      match a with
      | ⟨0, _⟩ => rfl))
  rw [hk, hr]

end Cert.Bridge

end
-- ==== Proof.RefLayers.lean ====
/-
  The reference's layers, entry by entry.

  The reference computes each layer as: aggregate, scale each row by the destination factor, multiply by the
  weights, add the bias, clamp below at 0 — and scales by the source factor before the next aggregation. Reading
  the printed chain of operations at an index gives, for the first two layers, the same entry as the kernel's
  first region computes of the same aggregate; the last layer, which the kernel rearranges, is read as the dense
  map of its aggregate.
-/
import proofs.«127091_j29257317220561_2_alg».proof.Proof.Gen.ReferenceIdeal.Read
import proofs.«127091_j29257317220561_2_alg».proof.Proof.Spec

noncomputable section

open scoped BigOperators

namespace Cert.RefLayers

open Cert.ReferenceIdeal Cert.ReferenceIdeal.Gen Cert.ReferenceIdeal.Read
open Idealize.ShloMosaic Idealize.ShloMosaic.ValueIdx Idealize.ShloMosaic.TcCoe
open Cert.Spec (row col)

variable (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal))

/-- The reference's layer at an entry: the printed chain of operations read index by index. -/
theorem layer1 : val_main_v46 (F := Ideal) x0 x1 x2 x3 x4 = Cert.Spec.layerA (val_main_v23 (F := Ideal) x0 x1 x2) (val_main_v25 (F := Ideal) x2) (val_main_v11 (F := Ideal) x1) x3 (val_main_v29 (F := Ideal) x4) := by
  funext i
  have hS : val_main_v44 (F := Ideal) x1 = val_main_v11 (F := Ideal) x1 := rfl
  have hD : val_main_v25 (F := Ideal) x2 = val_main_v25 (F := Ideal) x2 := rfl
  have e1 : idx_main_v45 i = ix2 (row i) (0 : Fin 1) := funext fun a => by
    match a with
    | ⟨0, _⟩ => rfl
    | ⟨1, _⟩ => rfl
  have e2 : idx_main_v30 i = ix2 (0 : Fin 1) (col i) := funext fun a => by
    match a with
    | ⟨0, _⟩ => rfl
    | ⟨1, _⟩ => rfl
  have e3 : ∀ k : Fin 128, lidx_main_v28 i k = ix2 (row i) k := fun k => funext fun a => by
    match a with
    | ⟨0, _⟩ => rfl
    | ⟨1, _⟩ => rfl
  have e4 : ∀ k : Fin 128, ridx_main_v28 i k = ix2 k (col i) := fun k => funext fun a => by
    match a with
    | ⟨0, _⟩ => rfl
    | ⟨1, _⟩ => rfl
  have e5 : ∀ k : Fin 128, idx_main_v26 (ix2 (row i) k) = ix2 (row i) (0 : Fin 1) := fun k => funext fun a => by
    match a with
    | ⟨0, _⟩ => rfl
    | ⟨1, _⟩ => rfl
  have hsum : (∑ k : Fin 128, val_main_v27 (F := Ideal) x0 x1 x2 (lidx_main_v28 i k) * x3 (ridx_main_v28 i k))
      = ∑ q : Fin 128, (val_main_v23 (F := Ideal) x0 x1 x2 (ix2 (row i) q) * val_main_v25 (F := Ideal) x2 (ix2 (row i) (0 : Fin 1))) * x3 (ix2 q (col i)) :=
    Finset.sum_congr rfl fun k _ => by
      rw [e3 k, e4 k, val_main_v27_apply, val_main_v26_apply, hD, e5 k, Ideal.mulf_def]
  rw [val_main_v46_apply, val_main_v32_apply, val_main_v31_apply, val_main_v28_apply, val_main_v45_apply, hS,
    val_main_v30_apply, val_main_call2_v0_apply, val_main_call2_cst_apply, e1, e2, hsum,
    Ideal.mulf_def, Ideal.maximumf_def, Ideal.addf_def, Ideal.ofBits_def]
  rfl

/-- The reference's layer at an entry: the printed chain of operations read index by index. -/
theorem layer2 : val_main_v79 (F := Ideal) x0 x1 x2 x3 x4 x5 x6 = Cert.Spec.layerA (val_main_v56 (F := Ideal) x0 x1 x2 x3 x4) (val_main_v25 (F := Ideal) x2) (val_main_v11 (F := Ideal) x1) x5 (val_main_v62 (F := Ideal) x6) := by
  funext i
  have hS : val_main_v77 (F := Ideal) x1 = val_main_v11 (F := Ideal) x1 := rfl
  have hD : val_main_v58 (F := Ideal) x2 = val_main_v25 (F := Ideal) x2 := rfl
  have e1 : idx_main_v78 i = ix2 (row i) (0 : Fin 1) := funext fun a => by
    match a with
    | ⟨0, _⟩ => rfl
    | ⟨1, _⟩ => rfl
  have e2 : idx_main_v63 i = ix2 (0 : Fin 1) (col i) := funext fun a => by
    match a with
    | ⟨0, _⟩ => rfl
    | ⟨1, _⟩ => rfl
  have e3 : ∀ k : Fin 128, lidx_main_v61 i k = ix2 (row i) k := fun k => funext fun a => by
    match a with
    | ⟨0, _⟩ => rfl
    | ⟨1, _⟩ => rfl
  have e4 : ∀ k : Fin 128, ridx_main_v61 i k = ix2 k (col i) := fun k => funext fun a => by
    match a with
    | ⟨0, _⟩ => rfl
    | ⟨1, _⟩ => rfl
  have e5 : ∀ k : Fin 128, idx_main_v59 (ix2 (row i) k) = ix2 (row i) (0 : Fin 1) := fun k => funext fun a => by
    match a with
    | ⟨0, _⟩ => rfl
    | ⟨1, _⟩ => rfl
  have hsum : (∑ k : Fin 128, val_main_v60 (F := Ideal) x0 x1 x2 x3 x4 (lidx_main_v61 i k) * x5 (ridx_main_v61 i k))
      = ∑ q : Fin 128, (val_main_v56 (F := Ideal) x0 x1 x2 x3 x4 (ix2 (row i) q) * val_main_v25 (F := Ideal) x2 (ix2 (row i) (0 : Fin 1))) * x5 (ix2 q (col i)) :=
    Finset.sum_congr rfl fun k _ => by
      rw [e3 k, e4 k, val_main_v60_apply, val_main_v59_apply, hD, e5 k, Ideal.mulf_def]
  rw [val_main_v79_apply, val_main_v65_apply, val_main_v64_apply, val_main_v61_apply, val_main_v78_apply, hS,
    val_main_v63_apply, val_main_call5_v0_apply, val_main_call5_cst_apply, e1, e2, hsum,
    Ideal.mulf_def, Ideal.maximumf_def, Ideal.addf_def, Ideal.ofBits_def]
  rfl

/-- The reference's last layer at an entry: the dense map of the last aggregate. -/
theorem layer3 : val_main_v98 (F := Ideal) x0 x1 x2 x3 x4 x5 x6 x7 x8
    = fun i => Cert.Spec.dense (val_main_v89 (F := Ideal) x0 x1 x2 x3 x4 x5 x6) (val_main_v25 (F := Ideal) x2) x7 (val_main_v95 (F := Ideal) x8) (row i) (col i) := by
  funext i
  have hD : val_main_v91 (F := Ideal) x2 = val_main_v25 (F := Ideal) x2 := rfl
  have e2 : idx_main_v96 i = ix2 (0 : Fin 1) (col i) := funext fun a => by
    match a with
    | ⟨0, _⟩ => rfl
    | ⟨1, _⟩ => rfl
  have e3 : ∀ k : Fin 128, lidx_main_v94 i k = ix2 (row i) k := fun k => funext fun a => by
    match a with
    | ⟨0, _⟩ => rfl
    | ⟨1, _⟩ => rfl
  have e4 : ∀ k : Fin 128, ridx_main_v94 i k = ix2 k (col i) := fun k => funext fun a => by
    match a with
    | ⟨0, _⟩ => rfl
    | ⟨1, _⟩ => rfl
  have e5 : ∀ k : Fin 128, idx_main_v92 (ix2 (row i) k) = ix2 (row i) (0 : Fin 1) := fun k => funext fun a => by
    match a with
    | ⟨0, _⟩ => rfl
    | ⟨1, _⟩ => rfl
  have hsum : (∑ k : Fin 128, val_main_v93 (F := Ideal) x0 x1 x2 x3 x4 x5 x6 (lidx_main_v94 i k) * x7 (ridx_main_v94 i k))
      = ∑ q : Fin 128, (val_main_v89 (F := Ideal) x0 x1 x2 x3 x4 x5 x6 (ix2 (row i) q) * val_main_v25 (F := Ideal) x2 (ix2 (row i) (0 : Fin 1))) * x7 (ix2 q (col i)) :=
    Finset.sum_congr rfl fun k _ => by
      rw [e3 k, e4 k, val_main_v93_apply, val_main_v92_apply, hD, e5 k, Ideal.mulf_def]
  rw [val_main_v98_apply, val_main_v97_apply, val_main_v94_apply, val_main_v96_apply, val_main_call8_v0_apply, val_main_call8_cst_apply, e2, hsum,
    Ideal.maximumf_def, Ideal.addf_def, Ideal.ofBits_def]
  rfl

end Cert.RefLayers

end
-- ==== Proof.LibRealEntries.lean ====
/-
  Arrays of extended reals whose entries are all real numbers, and the host operations that keep them so.

  At the ideal instance a float is an extended real. Laws such as distributivity hold on the real numbers
  but fail at the infinities, so a proof that uses them first shows that every entry it touches is a real
  number. An entry of an input is real by a precondition; an entry of a COMPUTED array is real because the
  operations that made it keep real entries real:
  * a gather reads entries of its table, whatever the index array holds (it only chooses WHICH entry);
  * a broadcast_in_dim reads entries of its operand;
  * a product, a sum, a difference and a maximum of reals are real; a finite sum of reals is real;
  * a scatter-add at the ideal instance is, entry by entry, the operand's entry plus a finite sum of update
    entries (the updates that land there), whatever the index array holds;
  * a select picks one of its two branches, lane by lane;
  * the reciprocal square root of a positive extended real is real (of a positive real it is 1/sqrt, of +inf it is 0).
-/
import Idealize.ShloMosaic.PureOps.Ideal
import Idealize.ShloMosaic.PureOps.Ideal.Laws
import Idealize.ShloMosaic.PureOps.Contract

noncomputable section

open scoped BigOperators

namespace Cert.LibRealEntries

open Idealize.ShloMosaic

/-- An extended real that is a real number. -/
def IsReal (a : EReal) : Prop := ∃ r : ℝ, a = (r : EReal)

/-- Every entry of the array is a real number. -/
def AllReal {ι : Type} (v : ι → EReal) : Prop := ∀ i, IsReal (v i)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  rcases max_choice a b with h | h <;> rw [h] <;> assumption

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The float word of +0 and the float word of 1, at the ideal instance. -/
theorem isReal_ofBits_zero : IsReal (Ideal.ofBits .f32 0x00000000#32) := by
  rw [Ideal.ofBits_zero_f32]; exact isReal_zero

/-- An extended real above 0 has a real reciprocal square root: 1/sqrt r at a positive real r, 0 at +inf. -/
theorem isReal_rsqrt_of_pos {a : EReal} (h : 0 < a) : IsReal (Ideal.rsqrt a) := by
  induction a using EReal.rec with
  | bot => exact absurd h (not_lt_bot)
  | top => exact isReal_zero
  | coe r =>
    have hr : (0 : ℝ) < r := by exact_mod_cast h
    show IsReal (if r < 0 then ⊥ else if r = 0 then ⊤ else (((Real.sqrt r)⁻¹ : ℝ) : EReal))
    rw [if_neg (not_lt.mpr hr.le), if_neg hr.ne']
    exact isReal_coe _

section Arrays

variable {s si t u : Shape} {w : Nat}

/-- A gather's entries are entries of its table. -/
theorem AllReal.gather (d : GatherDims s si t) {x : s.Idx → EReal} (hx : AllReal x) (idx : IVec si w) :
    AllReal (Host.gather d x idx) := fun j => hx (d.operandIdx j idx)

/-- A broadcast_in_dim's entries are entries of its operand. -/
theorem AllReal.broadcastInDim (tt : Shape) (dims : Fin s.rank → Fin tt.rank) (h : s.BroadcastsInDim tt dims)
    {x : s.Idx → EReal} (hx : AllReal x) : AllReal (Idealize.ShloMosaic.broadcastInDim tt dims h x) :=
  fun _ => hx _

/-- An entrywise product of arrays of reals. -/
theorem AllReal.mulf {φ : FTy} {x y : FVec Ideal s φ} (hx : AllReal x) (hy : AllReal y) :
    AllReal (Idealize.ShloMosaic.mulf x y) := fun i => (hx i).mul (hy i)

/-- An entrywise difference of arrays of reals. -/
theorem AllReal.subf {φ : FTy} {x y : FVec Ideal s φ} (hx : AllReal x) (hy : AllReal y) :
    AllReal (Idealize.ShloMosaic.subf x y) := fun i => (hx i).sub (hy i)

/-- A lane-by-lane select between arrays of reals. -/
theorem AllReal.select (c : IVec s 1) {a b : s.Idx → EReal} (ha : AllReal a) (hb : AllReal b) :
    AllReal (Idealize.ShloMosaic.select c a b) := fun i => by
  show IsReal (if c i = 1 then a i else b i)
  split_ifs
  · exact ha i
  · exact hb i

/-- The scatter-add of real updates into a real operand, at the ideal instance: each entry is the operand's
    plus the finite sum of the updates that land on it. -/
theorem AllReal.scatterAdd {φ : FTy} (d : ScatterDims s si u) {x : FVec Ideal s φ} (hx : AllReal x) (idx : IVec si w)
    {upd : FVec Ideal u φ} (hu : AllReal upd) : AllReal (Host.scatterAdd (F := Ideal) d x idx upd) := fun i => by
  show IsReal (x i + ∑ j ∈ Finset.univ.filter (fun j => d.resultIdx? j idx = some i), upd j)
  exact (hx i).add (isReal_sum _ _ fun j _ => hu j)

end Arrays

end Cert.LibRealEntries

end
-- ==== Proof.Reals.lean ====
/-
  Entries that are real numbers: the specification's dense maps, the reference's degree factors, its
  aggregation and its bias rows.

  Distributivity on the extended reals needs every entry it touches to be a real number. Here:
  * the dense map relu((A ⊙ d) W + b) of arrays of reals is real at every entry (a finite sum of products of reals,
    plus a real, clamped below at the real 0), and so are the three layer maps built from it;
  * a degree factor of the reference is the reciprocal square root of a degree clamped below at 1: the clamp makes
    the argument positive whatever the count underneath sums to, and the reciprocal square root of a positive
    extended real is real (of +inf it is 0);
  * the aggregation (gather the neighbours' rows, scatter-add them into zeros) of an array of reals is an array of
    reals, whatever the two index arrays hold;
  * a bias row is a re-indexing of the bias vector, and the input scaled by a degree factor is a product of reals.
-/
import proofs.«127091_j29257317220561_2_alg».proof.Proof.Gen.ReferenceIdeal.Read
import proofs.«127091_j29257317220561_2_alg».proof.Proof.Spec
import proofs.«127091_j29257317220561_2_alg».proof.Proof.LibRealEntries
import Idealize.ShloMosaic.PureOps.Ideal.Laws

noncomputable section

open scoped BigOperators

namespace Cert.Reals

open Cert.ReferenceIdeal Cert.ReferenceIdeal.Read Cert.LibRealEntries Cert.Spec Idealize.ShloMosaic
open Idealize.ShloMosaic.ValueIdx

/-! ## The specification's maps keep reals -/

/-- The float word of +0 is the real 0. -/
theorem isReal_zeroW : IsReal zeroW := by
  unfold zeroW
  exact isReal_ofBits_zero

/-- The dense map of arrays of reals is real at every entry. -/
theorem isReal_dense {n k c : ℕ} {A : Mat n k} {D : Mat n 1} {W : Mat k c} {b : Mat 1 c}
    (hA : AllReal A) (hD : AllReal D) (hW : AllReal W) (hb : AllReal b) (r : Fin n) (j : Fin c) :
    IsReal (dense A D W b r j) := by
  unfold dense
  exact ((isReal_sum _ _ fun q _ => ((hA _).mul (hD _)).mul (hW _)).add (hb _)).max isReal_zeroW

/-- The first layer map of arrays of reals is an array of reals. -/
theorem allReal_layerA {n : ℕ} {A : Mat n 128} {D S : Mat n 1} {W : Mat 128 128} {b : Mat 1 128}
    (hA : AllReal A) (hD : AllReal D) (hS : AllReal S) (hW : AllReal W) (hb : AllReal b) :
    AllReal (layerA A D S W b) := fun i => by
  show IsReal (dense A D W b (row i) (col i) * S (ix2 (row i) (0 : Fin 1)))
  exact (isReal_dense hA hD hW hb _ _).mul (hS _)

/-- The second layer map of arrays of reals is an array of reals. -/
theorem allReal_layerB {n : ℕ} {A : Mat n 128} {D S : Mat n 1} {W2 : Mat 128 128} {b : Mat 1 128} {W3 : Mat 128 64}
    (hA : AllReal A) (hD : AllReal D) (hS : AllReal S) (hW2 : AllReal W2) (hb : AllReal b) (hW3 : AllReal W3) :
    AllReal (layerB A D S W2 b W3) := fun i => by
  show IsReal (∑ q : Fin 128, (dense A D W2 b (row i) q * S (ix2 (row i) (0 : Fin 1))) * W3 (ix2 q (col i)))
  exact isReal_sum _ _ fun q _ => ((isReal_dense hA hD hW2 hb _ _).mul (hS _)).mul (hW3 _)

/-- The third layer map of arrays of reals is an array of reals. -/
theorem allReal_layerC {n : ℕ} {A : Mat n 64} {D : Mat n 1} {b : Mat 1 64}
    (hA : AllReal A) (hD : AllReal D) (hb : AllReal b) : AllReal (layerC A D b) := fun i => by
  show IsReal (max (A i * D (ix2 (row i) (0 : Fin 1)) + b (ix2 (0 : Fin 1) (col i))) zeroW)
  exact (((hA _).mul (hD _)).add (hb _)).max isReal_zeroW

/-! ## The reference's degree factors are real -/

/-- The float word `0x3F800000` denotes 1. -/
theorem ofBits_one : Ideal.ofBits .f32 0x3F800000#32 = 1 := by
  simp [Ideal.ofBits, Ideal.ieee, -EReal.coe_mul]; norm_num

/-- The reciprocal square root of an extended real clamped below at 1 is real. -/
theorem isReal_rsqrt_max_one (y : EReal) : IsReal (Ideal.rsqrt (max 1 y)) :=
  isReal_rsqrt_of_pos (lt_of_lt_of_le zero_lt_one (le_max_left _ _))

/-- The source degree factor: every entry is real. -/
theorem allReal_v11 (x1 : (⟨S800000, .i32⟩ : BufTy).Contents (Elt Ideal)) : AllReal (val_main_v11 (F := Ideal) x1) := fun i => by
  rw [val_main_v11_apply, val_main_v10_apply, Ideal.hostUnary_rsqrt_def, val_main_v4_apply, Ideal.maximumf_def,
    val_main_call0_v1_apply, val_main_call0_v0_apply, val_main_cst_1_apply, Ideal.ofBits_def, ofBits_one]
  exact isReal_rsqrt_max_one _

/-- The destination degree factor: every entry is real. -/
theorem allReal_v25 (x2 : (⟨S800000, .i32⟩ : BufTy).Contents (Elt Ideal)) : AllReal (val_main_v25 (F := Ideal) x2) := fun i => by
  rw [val_main_v25_apply, val_main_v24_apply, Ideal.hostUnary_rsqrt_def, val_main_v9_apply, Ideal.maximumf_def,
    val_main_call1_v1_apply, val_main_call1_v0_apply, val_main_cst_4_apply, Ideal.ofBits_def, ofBits_one]
  exact isReal_rsqrt_max_one _

/-! ## The reference's aggregation keeps reals -/

/-- The array of zeros the aggregation adds into. -/
theorem allReal_v21 : AllReal (val_main_v21 (F := Ideal)) := by
  unfold val_main_v21
  refine AllReal.broadcastInDim _ _ _ fun i => ?_
  rw [val_main_cst_6_apply, Ideal.ofBits_def]
  exact isReal_ofBits_zero

/-- Gathering rows of an array of reals and scatter-adding them into zeros gives an array of reals. -/
theorem allReal_agg (x1 x2 : (⟨S800000, .i32⟩ : BufTy).Contents (Elt Ideal)) {h : (⟨S50000x128, .f32⟩ : BufTy).Contents (Elt Ideal)}
    (hh : AllReal h) :
    AllReal (Host.scatterAdd (F := Ideal) (φ := .f32) scatter_S50000x128_S800000x1_S800000x128_1_0_0_1 (val_main_v21 (F := Ideal))
      (val_main_v22 (F := Ideal) x2)
      (Host.gather gather_S50000x128_S800000x1_S800000x128_1_0_n_n_0_1_1128 h (val_main_v19 (F := Ideal) x1))) :=
  AllReal.scatterAdd _ allReal_v21 _ (AllReal.gather _ hh _)

/-! ## Bias rows and the scaled input -/

theorem allReal_v29 {x4 : (⟨S128, .f32⟩ : BufTy).Contents (Elt Ideal)} (h : AllReal x4) : AllReal (val_main_v29 (F := Ideal) x4) := by
  unfold val_main_v29
  exact AllReal.broadcastInDim _ _ _ h

theorem allReal_v62 {x6 : (⟨S128, .f32⟩ : BufTy).Contents (Elt Ideal)} (h : AllReal x6) : AllReal (val_main_v62 (F := Ideal) x6) := by
  unfold val_main_v62
  exact AllReal.broadcastInDim _ _ _ h

theorem allReal_v95 {x8 : (⟨S64, .f32⟩ : BufTy).Contents (Elt Ideal)} (h : AllReal x8) : AllReal (val_main_v95 (F := Ideal) x8) := by
  unfold val_main_v95
  exact AllReal.broadcastInDim _ _ _ h

/-- The input with each row scaled by its source degree factor. -/
theorem allReal_v13 {x0 : (⟨S50000x128, .f32⟩ : BufTy).Contents (Elt Ideal)} (x1 : (⟨S800000, .i32⟩ : BufTy).Contents (Elt Ideal))
    (h0 : AllReal x0) : AllReal (val_main_v13 (F := Ideal) x0 x1) := by
  unfold val_main_v13 val_main_v12
  exact AllReal.mulf h0 (AllReal.broadcastInDim _ _ _ (allReal_v11 x1))

end Cert.Reals

end
-- ==== Proof.LibScatterRows.lean ====
/-
  A scatter-add with one scatter index per update row, read at an index.

  `segment_sum` of `R` update rows into `N` segments lowers to a `stablehlo.scatter` with an `add`
  body whose scatter indices have shape `[R, 1]`: update row `e` is added to operand row
  `idx[e, 0]`, the index read as a signed integer and NOT clamped, so that an update whose index is
  negative or at least `N` is dropped. At the ideal instance the colliding updates are summed
  exactly, so operand element `i` (or `(i, f)`) becomes itself plus the sum over ALL update rows
  `e` of the update element if `idx[e, 0] = i` and of zero otherwise.

  Two patterns: a vector operand `[N]` with updates `[R]`, and a matrix operand `[N, C]` with
  updates `[R, C]` whose column axis is the one window axis.
-/
import Idealize.ShloMosaic.Lib.ValueIdx

noncomputable section

open scoped BigOperators

namespace Cert.LibScatterRows

open Idealize.ShloMosaic Idealize.ShloMosaic.ValueIdx

/-! ## A sum over a rank-1 index set is the sum over its coordinate -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The vector pattern: operand `[N]`, scatter indices `[R, 1]`, updates `[R]` -/

/-- The dimension numbers of a scatter into a vector: no window axis, the one operand axis inserted. -/
abbrev vecDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The window of update `e` starts at its scatter index `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted one: no window coordinate on it. -/
theorem vec_window (e : Fin R) : (vecDims N R wf).window (ix1 e) (0 : Fin 1) = 0 := by
  unfold ScatterDims.window
  rw [dif_neg]
  intro h
  have : (0 : Fin 1) ∉ [(0 : Fin 1)] := (List.mem_filter.mp h).2 |> fun h' => by simpa using h'
  exact this (List.mem_singleton.mpr rfl)

/-- Update `e` lands on operand element `i` exactly when its scatter index is `i`. -/
theorem vec_resultIdx?_eq_some (idx : IVec ⟨2, ![R, 1]⟩ w) (e : Fin R) (i : Fin N) :
    (vecDims N R wf).resultIdx? (ix1 e) idx = some (ix1 i) ↔ (idx (ix2 e (0 : Fin 1))).toInt = (i.val : ℤ) := by
  unfold ScatterDims.resultIdx?
  have hi : i.val < N := i.isLt
  split_ifs with h
  · rw [Option.some.injEq]
    constructor
    · intro hEq
      have h0 := h 0
      have hv := congrArg (fun (k : (⟨1, ![N]⟩ : Shape).Idx) => (k 0).val) hEq
      simp only [vec_start, vec_window] at h0 hv
      change ((idx (ix2 e (0 : Fin 1))).toInt + ((0 : ℕ) : ℤ)).toNat = i.val at hv
      omega
    · intro hEq
      funext a
      obtain rfl : a = 0 := Subsingleton.elim _ _
      refine Fin.ext ?_
      show ((vecDims N R wf).start (ix1 e) idx 0 + ((vecDims N R wf).window (ix1 e) 0 : ℕ)).toNat = i.val
      rw [vec_start, vec_window, hEq]
      omega
  · constructor
    · intro hEq; exact absurd hEq (by simp)
    · intro hEq
      exfalso; apply h
      intro a
      obtain rfl : a = 0 := Subsingleton.elim _ _
      rw [vec_start, vec_window, hEq]
      show 0 ≤ (i.val : ℤ) + ((0 : ℕ) : ℤ) ∧ (i.val : ℤ) + ((0 : ℕ) : ℤ) < (N : ℤ)
      omega

/-- THE VECTOR SCATTER-ADD READ AT `i`: the operand element plus every update whose scatter index is `i`. -/
theorem scatterAdd_vec_apply {φ : FTy} (x : FVec Ideal ⟨1, ![N]⟩ φ) (idx : IVec ⟨2, ![R, 1]⟩ w)
    (upd : FVec Ideal ⟨1, ![R]⟩ φ) (i : Fin N) :
    Host.scatterAdd (F := Ideal) (vecDims N R wf) x idx upd (ix1 i)
      = x (ix1 i) + ∑ e : Fin R, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vec_resultIdx?_eq_some]

end Vec

/-! ## The row pattern: operand `[N, C]`, scatter indices `[R, 1]`, updates `[R, C]` -/

/-- The dimension numbers of a scatter of whole rows: the column axis is the one window axis, the row axis inserted. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N R C w : Nat} (wf : ScatterDims.WF ⟨2, ![N, C]⟩ ⟨2, ![R, 1]⟩ ⟨2, ![R, C]⟩ [1] [0] [0] 1)

/-- On the row axis the window of update `(e, f')` starts at its scatter index `idx[e, 0]`, read signed … -/
theorem rows_start0 (idx : IVec ⟨2, ![R, 1]⟩ w) (e : Fin R) (f' : Fin C) :
    (rowDims N R C wf).start (ix2 e f') idx (0 : Fin 2) = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e f') ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis, which no scatter index names, at `0`. -/
theorem rows_start1 (idx : IVec ⟨2, ![R, 1]⟩ w) (e : Fin R) (f' : Fin C) :
    (rowDims N R C wf).start (ix2 e f') idx (1 : Fin 2) = 0 := by
  unfold ScatterDims.start
  rw [dif_neg (show ¬ (1 : Fin 2) ∈ [(0 : Fin 2)] from
    fun h => absurd (List.mem_singleton.mp h) (by decide))]

/-- The row axis is an inserted one: no window coordinate on it … -/
theorem rows_window0 (e : Fin R) (f' : Fin C) : (rowDims N R C wf).window (ix2 e f') (0 : Fin 2) = 0 := by
  unfold ScatterDims.window
  rw [dif_neg]
  intro h
  have : (0 : Fin 2) ∉ [(0 : Fin 2)] := (List.mem_filter.mp h).2 |> fun h' => by simpa using h'
  exact this (List.mem_singleton.mpr rfl)

/-- … and on the column axis the window coordinate is the update's column. -/
theorem rows_window1 (e : Fin R) (f' : Fin C) : (rowDims N R C wf).window (ix2 e f') (1 : Fin 2) = f'.val := by
  unfold ScatterDims.window
  have h1 : (1 : Fin 2) ∈ (rowDims N R C wf).sKept :=
    List.mem_filter.mpr ⟨List.mem_finRange _, by simp⟩
  rw [dif_pos h1]
  rfl

/-- Update `(e, f')` lands on operand element `(i, f)` exactly when its scatter index is `i` and its column is `f`. -/
theorem rows_resultIdx?_eq_some (idx : IVec ⟨2, ![R, 1]⟩ w) (e : Fin R) (f' : Fin C) (i : Fin N) (f : Fin C) :
    (rowDims N R C wf).resultIdx? (ix2 e f') idx = some (ix2 i f)
      ↔ (idx (ix2 e (0 : Fin 1))).toInt = (i.val : ℤ) ∧ f' = f := by
  unfold ScatterDims.resultIdx?
  have hi : i.val < N := i.isLt
  have hf : f.val < C := f.isLt
  have hf' : f'.val < C := f'.isLt
  split_ifs with h
  · rw [Option.some.injEq]
    constructor
    · intro hEq
      have h0 := h 0
      have hv0 := congrArg (fun (k : (⟨2, ![N, C]⟩ : Shape).Idx) => (k 0).val) hEq
      have hv1 := congrArg (fun (k : (⟨2, ![N, C]⟩ : Shape).Idx) => (k 1).val) hEq
      simp only [rows_start0, rows_window0] at h0
      change ((rowDims N R C wf).start (ix2 e f') idx 0 + ((rowDims N R C wf).window (ix2 e f') 0 : ℕ)).toNat = i.val at hv0
      change ((rowDims N R C wf).start (ix2 e f') idx 1 + ((rowDims N R C wf).window (ix2 e f') 1 : ℕ)).toNat = f.val at hv1
      rw [rows_start0, rows_window0] at hv0
      rw [rows_start1, rows_window1] at hv1
      refine ⟨by omega, Fin.ext (by omega)⟩
    · rintro ⟨hEq, rfl⟩
      funext a
      refine Fin.ext ?_
      match a with
      | ⟨0, _⟩ =>
        show ((rowDims N R C wf).start (ix2 e f') idx 0 + ((rowDims N R C wf).window (ix2 e f') 0 : ℕ)).toNat = i.val
        rw [rows_start0, rows_window0, hEq]
        omega
      | ⟨1, _⟩ =>
        show ((rowDims N R C wf).start (ix2 e f') idx 1 + ((rowDims N R C wf).window (ix2 e f') 1 : ℕ)).toNat = f'.val
        rw [rows_start1, rows_window1]
        omega
  · constructor
    · intro hEq; exact absurd hEq (by simp)
    · rintro ⟨hEq, rfl⟩
      exfalso; apply h
      intro a
      match a with
      | ⟨0, _⟩ =>
        show 0 ≤ (rowDims N R C wf).start (ix2 e f') idx 0 + ((rowDims N R C wf).window (ix2 e f') 0 : ℕ)
          ∧ (rowDims N R C wf).start (ix2 e f') idx 0 + ((rowDims N R C wf).window (ix2 e f') 0 : ℕ) < (N : ℤ)
        rw [rows_start0, rows_window0, hEq]
        omega
      | ⟨1, _⟩ =>
        show 0 ≤ (rowDims N R C wf).start (ix2 e f') idx 1 + ((rowDims N R C wf).window (ix2 e f') 1 : ℕ)
          ∧ (rowDims N R C wf).start (ix2 e f') idx 1 + ((rowDims N R C wf).window (ix2 e f') 1 : ℕ) < (C : ℤ)
        rw [rows_start1, rows_window1]
        omega

/-- THE ROW SCATTER-ADD READ AT `(i, f)`: the operand element plus column `f` of every update row whose scatter
    index is `i`. -/
theorem scatterAdd_rows_apply {φ : FTy} (x : FVec Ideal ⟨2, ![N, C]⟩ φ) (idx : IVec ⟨2, ![R, 1]⟩ w)
    (upd : FVec Ideal ⟨2, ![R, C]⟩ φ) (i : Fin N) (f : Fin C) :
    Host.scatterAdd (F := Ideal) (rowDims N R C wf) x idx upd (ix2 i f)
      = x (ix2 i f) + ∑ e : Fin R, if (idx (ix2 e (0 : Fin 1))).toInt = (i.val : ℤ) then upd (ix2 e f) else 0 := by
  unfold Host.scatterAdd
  rw [Ideal.hostScatterAdd_def]
  unfold Ideal.hostScatterAdd
  refine congrArg (x (ix2 i f) + ·) ?_
  rw [Finset.sum_filter, sum_idx2]
  refine Finset.sum_congr rfl fun e _ => ?_
  simp only [rows_resultIdx?_eq_some]
  by_cases hP : (idx (ix2 e (0 : Fin 1))).toInt = (i.val : ℤ)
  · simp only [hP, true_and, if_true]
    rw [Finset.sum_ite_eq' Finset.univ f (fun f' => upd (ix2 e f'))]
    simp
  · simp only [hP, false_and, if_false]
    exact Finset.sum_const_zero

end Rows

end Cert.LibScatterRows

end
-- ==== Proof.LibGatherRows.lean ====
/-
  A row gather read at an index.

  `table[idx]` for a table of `N` rows and `C` columns and `R` integer row numbers lowers to a
  `stablehlo.gather` whose start indices have shape `[R, 1]`, whose slices are one whole row
  (`slice_sizes = [1, C]`), with the row axis collapsed and the column axis the one offset axis.
  Result element `(e, j)` is then the table at row `clamp (idx[e, 0])` and column `j`, where the
  start index is read as a signed integer and clamped into `[0, N - 1]` (StableHLO clamps every
  start index so that the slice fits). In particular WHICH row is read depends on `e` and on the
  index array only, never on the table's contents nor on the column: a row gather commutes with any
  function applied row by row.
-/
import Idealize.ShloMosaic.Lib.ValueIdx

noncomputable section

namespace Cert.GatherRows

open Idealize.ShloMosaic Idealize.ShloMosaic.ValueIdx

variable {α : Type}

/-- The dimension numbers of a row gather: operand `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Where result row `e` finds its start index: position `[e, 0]` of the index array. -/
abbrev startPos {R : Nat} (e : Fin R) : (⟨2, ![R, 1]⟩ : Shape).Idx := ix2 e (⟨0, Nat.one_pos⟩ : Fin 1)

/-- The table row that result row `e` reads: its start index, read signed, clamped into `[0, N - 1]`. -/
def rowOf {R w : Nat} (N : Nat) (hN : 0 < N) (idx : IVec ⟨2, ![R, 1]⟩ w) (e : Fin R) : Fin N :=
  ⟨min (idx (startPos e)).toInt.toNat (N - 1), by omega⟩

/-- THE ROW GATHER READ AT `(e, j)`: the table at row `rowOf idx e`, column `j`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf N hN idx e) j) := by
  unfold Host.gather
  refine congrArg x ?_
  funext a
  refine Fin.ext ?_
  show (rowDims N R C wf).start (ix2 e j) idx a + (rowDims N R C wf).batchCoord (ix2 e j) a
      + (rowDims N R C wf).offCoord (ix2 e j) a = _
  rw [GatherDims.batchCoord_eq_zero _ _ _ List.not_mem_nil, Nat.add_zero]
  match a with
  | ⟨0, _⟩ =>
    -- the row axis: collapsed, so no offset; the clamped start index
    show (rowDims N R C wf).start (ix2 e j) idx (0 : Fin 2) + (rowDims N R C wf).offCoord (ix2 e j) (0 : Fin 2)
      = (rowOf N hN idx e).val
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = startPos e := by
      funext b; refine Fin.ext ?_
      match b with
      | ⟨0, _⟩ => rfl
      | ⟨1, _⟩ => rfl
    rw [hsi]
    rfl
  | ⟨1, _⟩ =>
    -- the column axis: not indexed, so the start is 0; the offset is the result's column
    have hs : (rowDims N R C wf).start (ix2 e j) idx (1 : Fin 2) = 0 := by
      unfold GatherDims.start
      rw [dif_neg (show ¬ (1 : Fin 2) ∈ [(0 : Fin 2)] from
        fun h => absurd (List.mem_singleton.mp h) (by decide))]
    have ho : (rowDims N R C wf).offCoord (ix2 e j) (1 : Fin 2) = j.val := by
      unfold GatherDims.offCoord
      rw [dif_pos ((GatherDims.mem_sKept _ _).mpr
        ⟨show ¬ (1 : Fin 2) ∈ [(0 : Fin 2)] from fun h => absurd (List.mem_singleton.mp h) (by decide),
          List.not_mem_nil⟩)]
      rfl
    show (rowDims N R C wf).start (ix2 e j) idx (1 : Fin 2) + (rowDims N R C wf).offCoord (ix2 e j) (1 : Fin 2) = j.val
    rw [hs, ho, Nat.zero_add]

end Cert.GatherRows

end
-- ==== Proof.FoldWeights.lean ====
/-
  The one law that joins the two programs: a product with a weight matrix commutes with the aggregation.

  Row i of the aggregate is the sum, over the edges e that end at i, of row s(e) of the features. Whether the
  features are multiplied by a weight matrix before the aggregation (entry j of each gathered row is its inner
  product with column j of the weights) or after it, and wherever the row's degree factor d multiplies, the result
  is the same double sum, rearranged. On the extended reals the rearrangement (distributivity and an exchange
  of two finite sums) needs every entry to be a real number, so the law is proved on reals and carried over.
-/
import Idealize.ShloMosaic.PureOps.Ideal
import proofs.«127091_j29257317220561_2_alg».proof.Proof.LibRealEntries

noncomputable section

open scoped BigOperators

namespace Cert.Fold

open Cert.LibRealEntries

/-- The coercion of a finite real sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A masked real, coerced. -/
theorem coe_ite (p : Prop) [Decidable p] (a : ℝ) : ((if p then a else 0 : ℝ) : EReal) = if p then ((a : ℝ) : EReal) else 0 := by
  split_ifs <;> simp

/-- The law on reals: a masked sum of inner products, scaled, is the inner product of the scaled masked sums. -/
theorem fold_real {E K : Type} [Fintype E] [Fintype K] (p : E → Prop) [DecidablePred p]
    (h : E → K → ℝ) (w : K → ℝ) (d : ℝ) :
    (∑ e, if p e then (∑ k, h e k * w k) else 0) * d = ∑ k, ((∑ e, if p e then h e k else 0) * d) * w k := by
  simp only [← Finset.sum_filter, Finset.sum_mul]
  rw [Finset.sum_comm]
  refine Finset.sum_congr rfl fun k _ => Finset.sum_congr rfl fun e _ => ?_
  ring

/-- The law on extended reals whose entries are all real. -/
theorem fold_weights {E K : Type} [Fintype E] [Fintype K] (p : E → Prop) [DecidablePred p]
    (h : E → K → EReal) (w : K → EReal) (d : EReal)
    (hh : ∀ e k, IsReal (h e k)) (hw : ∀ k, IsReal (w k)) (hd : IsReal d) :
    (∑ e, if p e then (∑ k, h e k * w k) else 0) * d = ∑ k, ((∑ e, if p e then h e k else 0) * d) * w k := by
  choose h' hh' using hh
  choose w' hw' using hw
  obtain ⟨d', rfl⟩ := hd
  simp only [hh', hw']
  simp only [← EReal.coe_mul, ← coe_sum, ← coe_ite]
  exact congrArg _ (fold_real p h' w' d')

end Cert.Fold

end
-- ==== Proof.LibAggregateProduct.lean ====
/-
  A product with a weight matrix commutes with the aggregation of rows.

  The aggregation of an array X of N rows along R edges, each edge e with a source row s(e) and a destination row
  t(e), gathers row s(e) of X for every edge and adds it into row t(e) of an array of zeros: row r of the aggregate is
  the sum of the rows X[s(e)] over the edges with t(e) = r. Take X = H W, the features H (N × K) times a weight matrix
  W (K × C), and scale row r of the aggregate by a factor d. Entry (r, j) of the result is

      (∑ over edges e with t(e) = r of ∑ q, H[s(e), q] · W[q, j]) · d,

  and exchanging the two finite sums and distributing d gives

      ∑ q, ((∑ over edges e with t(e) = r of H[s(e), q]) · d) · W[q, j],

  the inner product of row r of the SCALED AGGREGATE OF H with column j of W. On the extended reals the
  exchange needs the entries of H and W and the factor d to be real numbers. Which rows an edge reads and writes
  depends on the two index arrays only (a source index is clamped into the table, a destination index outside it is
  dropped), the same on both sides.
-/
import Idealize.ShloMosaic.PureOps.Ideal
import Idealize.ShloMosaic.Lib.ValueIdx
import proofs.«127091_j29257317220561_2_alg».proof.Proof.LibScatterRows
import proofs.«127091_j29257317220561_2_alg».proof.Proof.LibGatherRows
import proofs.«127091_j29257317220561_2_alg».proof.Proof.LibRealEntries
import proofs.«127091_j29257317220561_2_alg».proof.Proof.FoldWeights

noncomputable section

open scoped BigOperators

namespace Cert.LibAggregateProduct

open Idealize.ShloMosaic Idealize.ShloMosaic.ValueIdx Cert.LibRealEntries

/-- Entry `(r, f)` of the aggregate of a table `X`: the sum, over the edges whose destination index is `r`, of entry `f`
    of the table's row the edge's source index names. -/
theorem aggregate_apply {N R C w : ℕ} (hN : 0 < N)
    (swf : ScatterDims.WF ⟨2, ![N, C]⟩ ⟨2, ![R, 1]⟩ ⟨2, ![R, C]⟩ [1] [0] [0] 1)
    (gwf : GatherDims.WF ⟨2, ![N, C]⟩ ⟨2, ![R, 1]⟩ ⟨2, ![R, C]⟩ [1] [0] [] [0] [] 1 ![1, C])
    {φ : FTy} (Z : FVec Ideal ⟨2, ![N, C]⟩ φ) (hZ : ∀ i, Z i = 0) (idxD idxS : IVec ⟨2, ![R, 1]⟩ w)
    (X : FVec Ideal ⟨2, ![N, C]⟩ φ) (r : Fin N) (f : Fin C) :
    Host.scatterAdd (F := Ideal) (Cert.LibScatterRows.rowDims N R C swf) Z idxD
        (Host.gather (Cert.GatherRows.rowDims N R C gwf) X idxS) (ix2 r f)
      = ∑ e : Fin R, if (idxD (ix2 e (0 : Fin 1))).toInt = (r.val : ℤ)
          then X (ix2 (Cert.GatherRows.rowOf N hN idxS e) f) else 0 := by
  rw [Cert.LibScatterRows.scatterAdd_rows_apply swf Z idxD _ r f, hZ, zero_add]
  refine Finset.sum_congr rfl fun e _ => ?_
  rw [Cert.GatherRows.gather_rows_apply hN gwf X idxS e f]

/-- The aggregate of (features times weights), at one entry, scaled by `d`, is the inner product of the scaled aggregate
    of the features with the weights' column. -/
theorem aggregate_product {N R K C w : ℕ} (hN : 0 < N)
    (swfK : ScatterDims.WF ⟨2, ![N, K]⟩ ⟨2, ![R, 1]⟩ ⟨2, ![R, K]⟩ [1] [0] [0] 1)
    (swfC : ScatterDims.WF ⟨2, ![N, C]⟩ ⟨2, ![R, 1]⟩ ⟨2, ![R, C]⟩ [1] [0] [0] 1)
    (gwfK : GatherDims.WF ⟨2, ![N, K]⟩ ⟨2, ![R, 1]⟩ ⟨2, ![R, K]⟩ [1] [0] [] [0] [] 1 ![1, K])
    (gwfC : GatherDims.WF ⟨2, ![N, C]⟩ ⟨2, ![R, 1]⟩ ⟨2, ![R, C]⟩ [1] [0] [] [0] [] 1 ![1, C])
    {φ : FTy} (ZK : FVec Ideal ⟨2, ![N, K]⟩ φ) (ZC : FVec Ideal ⟨2, ![N, C]⟩ φ) (hZK : ∀ i, ZK i = 0) (hZC : ∀ i, ZC i = 0)
    (idxD idxS : IVec ⟨2, ![R, 1]⟩ w)
    (H : FVec Ideal ⟨2, ![N, K]⟩ φ) (W : (⟨2, ![K, C]⟩ : Shape).Idx → EReal) (d : EReal)
    (hH : AllReal H) (hW : AllReal W) (hd : IsReal d) (r : Fin N) (j : Fin C) :
    (Host.scatterAdd (F := Ideal) (Cert.LibScatterRows.rowDims N R C swfC) ZC idxD
        (Host.gather (Cert.GatherRows.rowDims N R C gwfC)
          (fun i : (⟨2, ![N, C]⟩ : Shape).Idx => ∑ q : Fin K, H (ix2 ⟨(i 0).val, idx2_lt0 i⟩ q) * W (ix2 q ⟨(i 1).val, idx2_lt1 i⟩))
          idxS) (ix2 r j)) * d
      = ∑ q : Fin K, ((Host.scatterAdd (F := Ideal) (Cert.LibScatterRows.rowDims N R K swfK) ZK idxD
          (Host.gather (Cert.GatherRows.rowDims N R K gwfK) H idxS)) (ix2 r q) * d) * W (ix2 q j) := by
  -- the left side's aggregate, entry (r, j): the gathered table at (s(e), j) is the inner product of row s(e) with column j
  have hL : Host.scatterAdd (F := Ideal) (Cert.LibScatterRows.rowDims N R C swfC) ZC idxD
        (Host.gather (Cert.GatherRows.rowDims N R C gwfC)
          (fun i : (⟨2, ![N, C]⟩ : Shape).Idx => ∑ q : Fin K, H (ix2 ⟨(i 0).val, idx2_lt0 i⟩ q) * W (ix2 q ⟨(i 1).val, idx2_lt1 i⟩))
          idxS) (ix2 r j)
      = ∑ e : Fin R, if (idxD (ix2 e (0 : Fin 1))).toInt = (r.val : ℤ)
          then (∑ q : Fin K, H (ix2 (Cert.GatherRows.rowOf N hN idxS e) q) * W (ix2 q j)) else 0 :=
    aggregate_apply hN swfC gwfC ZC hZC idxD idxS _ r j
  -- the right side's aggregate of the features, entry (r, q)
  have hR : ∀ q : Fin K, Host.scatterAdd (F := Ideal) (Cert.LibScatterRows.rowDims N R K swfK) ZK idxD
        (Host.gather (Cert.GatherRows.rowDims N R K gwfK) H idxS) (ix2 r q)
      = ∑ e : Fin R, if (idxD (ix2 e (0 : Fin 1))).toInt = (r.val : ℤ)
          then H (ix2 (Cert.GatherRows.rowOf N hN idxS e) q) else 0 :=
    fun q => aggregate_apply hN swfK gwfK ZK hZK idxD idxS H r q
  rw [hL, Finset.sum_congr rfl fun q (_ : q ∈ (Finset.univ : Finset (Fin K))) => by rw [hR q]]
  exact Cert.Fold.fold_weights (fun e : Fin R => (idxD (ix2 e (0 : Fin 1))).toInt = (r.val : ℤ))
    (fun e q => H (ix2 (Cert.GatherRows.rowOf N hN idxS e) q)) (fun q => W (ix2 q j)) d
    (fun e q => hH _) (fun q => hW _) hd

end Cert.LibAggregateProduct

end
-- ==== Proof.Bridge2.lean ====
/-
  The kernel's result is the reference's.

  Through the first two layers the two programs compute the same arrays: each layer's region is the reference's
  layer of the same aggregate. In the last layer the kernel multiplies by the weights BEFORE aggregating (64
  columns to gather instead of 128) and the reference after; the two agree because a product with a weight matrix
  commutes with gathering rows and adding them up, and with the row's degree factor. That exchange needs every
  entry to be a real number: the inputs are finite by the precondition, the degree factors are reciprocal square
  roots of numbers at least 1, and sums, products and maxima of reals are real.
-/
import proofs.«127091_j29257317220561_2_alg».proof.Proof.Bridge1
import proofs.«127091_j29257317220561_2_alg».proof.Proof.RefLayers
import proofs.«127091_j29257317220561_2_alg».proof.Proof.Reals
import proofs.«127091_j29257317220561_2_alg».proof.Proof.LibAggregateProduct

noncomputable section

open scoped BigOperators

namespace Cert.Bridge

open Idealize.ShloMosaic Idealize.ShloMosaic.ValueIdx
open Cert.ReferenceIdeal.Read Cert.LibRealEntries Cert.Spec

/-! ## The specification's maps at an entry (over arbitrary arrays) -/

theorem layerC_apply {n : ℕ} (A : Mat n 64) (D : Mat n 1) (b : Mat 1 64) (r : Fin n) (j : Fin 64) :
    layerC A D b (ix2 r j) = max (A (ix2 r j) * D (ix2 r (0 : Fin 1)) + b (ix2 (0 : Fin 1) j)) zeroW := rfl

theorem dense_def {n k c : ℕ} (A : Mat n k) (D : Mat n 1) (W : Mat k c) (b : Mat 1 c) (r : Fin n) (j : Fin c) :
    dense A D W b r j = max ((∑ q : Fin k, (A (ix2 r q) * D (ix2 r (0 : Fin 1))) * W (ix2 q j)) + b (ix2 (0 : Fin 1) j)) zeroW := rfl

theorem row_ix2 {n c : ℕ} (r : Fin n) (j : Fin c) : row (ix2 r j) = r := rfl
theorem col_ix2 {n c : ℕ} (r : Fin n) (j : Fin c) : col (ix2 r j) = j := rfl

/-- The second region's map is the first region's map followed by the product with the next weights. -/
theorem layerB_eq {n : ℕ} (A : Mat n 128) (D S : Mat n 1) (W2 : Mat 128 128) (b : Mat 1 128) (W3 : Mat 128 64) :
    layerB A D S W2 b W3 = fun i : (⟨2, ![n, 64]⟩ : Shape).Idx =>
      ∑ q : Fin 128, layerA A D S W2 b (ix2 ⟨(i 0).val, idx2_lt0 i⟩ q) * W3 (ix2 q ⟨(i 1).val, idx2_lt1 i⟩) := rfl

/-! ## The two aggregations as a gather and a scatter-add of rows -/

/-- The kernel's 64-wide aggregation, over the row-gather and row-scatter records. -/
theorem agg64_rows (a1 a2 : IVec Cert.KernelIdeal.S800000 32) (X : FVec Ideal Cert.KernelIdeal.S50000x64 .bf16) :
    Cert.KernelIdeal.Host.agg64 (F := Ideal) a1 a2 X
      = Host.scatterAdd (F := Ideal) (φ := .f32) (Cert.LibScatterRows.rowDims 50000 800000 64 Cert.KernelIdeal.Facts₀.scatter_S50000x64_S800000x1_S800000x64_1_0_0_1_wf)
          (broadcastInDim Cert.KernelIdeal.S50000x64 ![] Cert.KernelIdeal.Facts₀.bcast_S_S50000x64 (constant (F := Ideal) Cert.KernelIdeal.S_ .f32 0x00000000#32)) (Cert.KernelIdeal.Host.dstIdx a2)
          (Host.gather (Cert.GatherRows.rowDims 50000 800000 64 Cert.KernelIdeal.Facts₀.gather_S50000x64_S800000x1_S800000x64_1_0_n_n_0_1_164_wf) X (Cert.KernelIdeal.Host.srcIdx a1)) := rfl

/-- The reference's 128-wide aggregation, over the same records and the same index arrays. -/
theorem aggR_rows (a1 a2 : IVec Cert.KernelIdeal.S800000 32) (X : FVec Ideal Cert.KernelIdeal.S50000x128 .f32) :
    aggR a1 a2 X
      = Host.scatterAdd (F := Ideal) (φ := .f32) (Cert.LibScatterRows.rowDims 50000 800000 128 Cert.ReferenceIdeal.Facts₀.scatter_S50000x128_S800000x1_S800000x128_1_0_0_1_wf)
          (val_main_v21 (F := Ideal)) (Cert.KernelIdeal.Host.dstIdx a2)
          (Host.gather (Cert.GatherRows.rowDims 50000 800000 128 Cert.ReferenceIdeal.Facts₀.gather_S50000x128_S800000x1_S800000x128_1_0_n_n_0_1_1128_wf) X (Cert.KernelIdeal.Host.srcIdx a1)) := rfl

theorem zero64 (i : Cert.KernelIdeal.S50000x64.Idx) :
    broadcastInDim Cert.KernelIdeal.S50000x64 ![] Cert.KernelIdeal.Facts₀.bcast_S_S50000x64 (constant (F := Ideal) Cert.KernelIdeal.S_ .f32 0x00000000#32) i = 0 :=
  Ideal.ofBits_zero_f32

theorem zero128 (i : Cert.ReferenceIdeal.S50000x128.Idx) : val_main_v21 (F := Ideal) i = 0 :=
  (val_main_v21_apply (F := Ideal) i).trans Ideal.ofBits_zero_f32

/-! ## The whole comparison -/

section
variable (a0 : FVec Ideal Cert.KernelIdeal.S50000x128 .f32) (a1 a2 : IVec Cert.KernelIdeal.S800000 32)
  (a3 : FVec Ideal Cert.KernelIdeal.S128x128 .f32) (a4 : FVec Ideal Cert.KernelIdeal.S128 .f32) (a5 : FVec Ideal Cert.KernelIdeal.S128x128 .f32) (a6 : FVec Ideal Cert.KernelIdeal.S128 .f32)
  (a7 : FVec Ideal Cert.KernelIdeal.S128x64 .f32) (a8 : FVec Ideal Cert.KernelIdeal.S64 .f32)

/-- The kernel's result as a term of its nine argument arrays. -/
def kernelTerm : Mat 50000 64 :=
  layerC (Cert.KernelIdeal.Host.agg64 (F := Ideal) a1 a2
      (layerB (Cert.KernelIdeal.Host.agg128 (F := Ideal) a1 a2
          (layerA (Cert.KernelIdeal.Host.agg128 (F := Ideal) a1 a2 (Cert.KernelIdeal.Host.scaled (F := Ideal) a0 a1)) (Cert.KernelIdeal.Host.fac (F := Ideal) a2) (Cert.KernelIdeal.Host.fac (F := Ideal) a1) a3 (Cert.KernelIdeal.Host.biasRow128 (F := Ideal) a4)))
        (Cert.KernelIdeal.Host.fac (F := Ideal) a2) (Cert.KernelIdeal.Host.fac (F := Ideal) a1) a5 (Cert.KernelIdeal.Host.biasRow128 (F := Ideal) a6) a7))
    (Cert.KernelIdeal.Host.fac (F := Ideal) a2) (Cert.KernelIdeal.Host.biasRow64 (F := Ideal) a8)

variable (h0 : AllReal a0) (h3 : AllReal a3) (h4 : AllReal a4) (h5 : AllReal a5) (h6 : AllReal a6) (h7 : AllReal a7)

include h0 h3 h4 in
/-- The reference's first hidden layer (scaled for the next aggregation) has real entries. -/
theorem real_v46 : AllReal (val_main_v46 (F := Ideal) a0 a1 a2 a3 a4) := by
  rw [Cert.RefLayers.layer1, v23_eq]
  exact Cert.Reals.allReal_layerA (Cert.Reals.allReal_agg a1 a2 (Cert.Reals.allReal_v13 a1 h0)) (Cert.Reals.allReal_v25 a2) (Cert.Reals.allReal_v11 a1) h3 (Cert.Reals.allReal_v29 h4)

include h0 h3 h4 h5 h6 in
/-- So has the second. -/
theorem real_v79 : AllReal (val_main_v79 (F := Ideal) a0 a1 a2 a3 a4 a5 a6) := by
  rw [Cert.RefLayers.layer2, v56_eq]
  exact Cert.Reals.allReal_layerA (Cert.Reals.allReal_agg a1 a2 (real_v46 a0 a1 a2 a3 a4 h0 h3 h4)) (Cert.Reals.allReal_v25 a2) (Cert.Reals.allReal_v11 a1) h5 (Cert.Reals.allReal_v62 h6)

include h0 h3 h4 h5 h6 h7 in
/-- THE BRIDGE: for finite inputs the kernel's result is the reference's, entry by entry. -/
theorem kernel_eq_reference : kernelTerm a0 a1 a2 a3 a4 a5 a6 a7 a8 = val_main_v98 (F := Ideal) a0 a1 a2 a3 a4 a5 a6 a7 a8 := by
  unfold kernelTerm
  -- the first two layers are the reference's
  rw [scaled_eq, agg128_eq, agg128_eq, fac_eq_v25 a2, fac_eq_v11 a1, biasRow128_eq a4, biasRow128_eq a6, biasRow64_eq a8,
    ← v23_eq, ← Cert.RefLayers.layer1, ← v56_eq, ← v62_eq a6, layerB_eq, ← Cert.RefLayers.layer2]
  -- the last layer, entry by entry
  funext i
  obtain ⟨r, j, rfl⟩ : ∃ (r : Fin 50000) (j : Fin 64), i = ix2 r j := ⟨row i, col i, eq_ix2_row_col i⟩
  rw [Cert.RefLayers.layer3, layerC_apply]
  show _ = dense (val_main_v89 (F := Ideal) a0 a1 a2 a3 a4 a5 a6) (val_main_v25 (F := Ideal) a2) a7 (val_main_v95 (F := Ideal) a8) (row (ix2 r j)) (col (ix2 r j))
  rw [row_ix2, col_ix2, dense_def, v89_eq, agg64_rows, aggR_rows]
  refine congrArg (fun t => max (t + val_main_v95 (F := Ideal) a8 (ix2 (0 : Fin 1) j)) zeroW) ?_
  exact Cert.LibAggregateProduct.aggregate_product (N := 50000) (R := 800000) (K := 128) (C := 64) (by decide) _ _ _ _ _ _ zero128 zero64 _ _
    (val_main_v79 (F := Ideal) a0 a1 a2 a3 a4 a5 a6) a7 _ (real_v79 a0 a1 a2 a3 a4 a5 a6 h0 h3 h4 h5 h6) h7 (Cert.Reals.allReal_v25 a2 _) r j

end

end Cert.Bridge

end
-- ==== Proof.Finite.lean ====
/-
  The precondition "every float input is finite", read back.

  The precondition is printed as a function to a single `i1`: for each float argument `X` it takes the array of
  comparisons `|X| < +inf`, reduces it by `and` over all its axes from the initial value 1 (an "all"), and joins the
  seven results by `and`. The claim's hypothesis says that the final `i1` is 1. Read backwards: an `and` that is 1
  had both operands 1; an all-reduce by `and` that is 1 had a 1 at every index; and at the ideal instance, where a
  float is an extended real, `|x| < +inf` says `max x (-x) < ⊤`, which fails at `⊤` and at `⊥`, so `x` is a real number.
-/
import proofs.«127091_j29257317220561_2_alg».proof.Pre_finite_inputs
import proofs.«127091_j29257317220561_2_alg».proof.Proof.LibRealEntries
import Idealize.ShloMosaic.PureOps.Ideal
import Idealize.ShloMosaic.PureOps.Ideal.Laws
import Idealize.ShloMosaic.Lib.ReduceAll

namespace Cert.Finite

open Idealize.ShloMosaic Cert.LibRealEntries
open Cert.Pre_finite_inputs (S_)

/-- The float word `0x7F800000` denotes `+inf`, the top of the extended reals. -/
theorem ofBits_inf : Ideal.ofBits .f32 0x7F800000#32 = (⊤ : EReal) := by
  simp [Ideal.ofBits, Ideal.ieee]

/-- An extended real whose absolute value `max x (-x)` is below `⊤` is a real number: at `⊥` the absolute value is
    `-⊥ = ⊤`, at `⊤` it is `⊤`. -/
theorem isReal_of_abs_lt_top {x : EReal} (h : max x (-x) < ⊤) : IsReal x := by
  induction x using EReal.rec with
  | bot => exact absurd h (by simp)
  | top => exact absurd h (by simp)
  | coe r => exact isReal_coe r

/-- One element of the printed comparison: `|x| < +inf` answered 1 makes `x` a real number. -/
theorem isReal_of_cmp_eq_one (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact isReal_of_abs_lt_top hlt
  · simp [hlt] at h'

/-- The rank-0 shape has one index. -/
instance subsingleton_S_Idx : Subsingleton S_.Idx := ⟨fun a b => funext fun d => d.elim0⟩

/-- The all-reduce of `|X| < +inf` over every axis of `X` is 1: every element of `X` is a real number. -/
theorem allReal_of_all_finite {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    AllReal x := fun i =>
  isReal_of_cmp_eq_one (x i) (Host.reduce_andi_all _ _ hr hu j e i)

/-- The precondition makes every float argument an array of real numbers. -/
theorem all_real [Cert.Pre_finite_inputs.Facts]
    (a0 : FVec Ideal Cert.Pre_finite_inputs.S50000x128 .f32) (a1 a2 : IVec Cert.Pre_finite_inputs.S800000 32)
    (a3 : FVec Ideal Cert.Pre_finite_inputs.S128x128 .f32) (a4 : FVec Ideal Cert.Pre_finite_inputs.S128 .f32)
    (a5 : FVec Ideal Cert.Pre_finite_inputs.S128x128 .f32) (a6 : FVec Ideal Cert.Pre_finite_inputs.S128 .f32)
    (a7 : FVec Ideal Cert.Pre_finite_inputs.S128x64 .f32) (a8 : FVec Ideal Cert.Pre_finite_inputs.S64 .f32)
    (h : Cert.Pre_finite_inputs.fn (F := Ideal) a0 a1 a2 a3 a4 a5 a6 a7 a8 = fun _ => 1#1) :
    AllReal a0 ∧ AllReal a3 ∧ AllReal a4 ∧ AllReal a5 ∧ AllReal a6 ∧ AllReal a7 ∧ AllReal a8 := by
  -- the one index of the rank-0 result
  let j : S_.Idx := fun d => d.elim0
  have h0 : Cert.Pre_finite_inputs.fn (F := Ideal) a0 a1 a2 a3 a4 a5 a6 a7 a8 j = 1#1 := congrFun h j
  unfold Cert.Pre_finite_inputs.fn Cert.Pre_finite_inputs.fn_part1 at h0
  dsimp only at h0
  -- the result is ((((((r0 ∧ r3) ∧ r4) ∧ r5) ∧ r6) ∧ r7) ∧ r8): peel the conjunctions from the outside
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨allReal_of_all_finite a0 _ _ _ j e0, allReal_of_all_finite a3 _ _ _ j e3,
    allReal_of_all_finite a4 _ _ _ j e4, allReal_of_all_finite a5 _ _ _ j e5,
    allReal_of_all_finite a6 _ _ _ j e6, allReal_of_all_finite a7 _ _ _ j e7,
    allReal_of_all_finite a8 _ _ _ j e8⟩

end Cert.Finite
-- ==== Proof.lean ====
/-
  A three-layer graph convolution on 50000 nodes and 800000 edges: the kernel against its reference, on the
  extended reals.

  Each layer aggregates the neighbours' feature rows along the edges (a gather of the source rows and a scatter-add
  into the destination rows), scales each row by the reciprocal square roots of the node's clamped degrees, applies
  a dense map (weights, bias, clamp at 0). The kernel runs the dense maps in three pipelined regions of ten row
  blocks each and, in the last layer, multiplies by the 128 × 64 weights BEFORE the aggregation instead of after it.

  The proof reads the kernel's result buffer off its run as one term of the argument arrays (each region's output
  array as a whole-array function of the arrays it reads, the host operations between the regions as array
  operations), reads the reference's result the same way, and shows the two terms equal entry by entry: the first
  two layers are the same arrays; the last layers agree because a product with a weight matrix commutes with the
  aggregation and with the row scale — an exchange of finite sums and a distributivity that hold on real numbers,
  which is where the precondition (every float input finite) is used.
-/
import proofs.«127091_j29257317220561_2_alg».proof.Defs
import proofs.«127091_j29257317220561_2_alg».proof.Proof.Gen.Kernel
import proofs.«127091_j29257317220561_2_alg».proof.Proof.Gen.Kernel.Skeleton
import proofs.«127091_j29257317220561_2_alg».proof.Proof.Gen.Kernel.Launch
import proofs.«127091_j29257317220561_2_alg».proof.Proof.Gen.Kernel.Points
import proofs.«127091_j29257317220561_2_alg».proof.Proof.Gen.Kernel.Frame
import proofs.«127091_j29257317220561_2_alg».proof.Proof.Gen.KernelIdeal
import proofs.«127091_j29257317220561_2_alg».proof.Proof.Gen.KernelIdeal.Skeleton
import proofs.«127091_j29257317220561_2_alg».proof.Proof.Gen.KernelIdeal.Launch
import proofs.«127091_j29257317220561_2_alg».proof.Proof.Gen.KernelIdeal.Points
import proofs.«127091_j29257317220561_2_alg».proof.Proof.Gen.KernelIdeal.Frame
import proofs.«127091_j29257317220561_2_alg».proof.Proof.Gen.ReferenceIdeal
import proofs.«127091_j29257317220561_2_alg».proof.Proof.Gen.Pre_finite_inputs
import proofs.«127091_j29257317220561_2_alg».proof.Proof.Gen.ReferenceIdeal.Run
import proofs.«127091_j29257317220561_2_alg».proof.Proof.Gen.ReferenceIdeal.Read
import proofs.«127091_j29257317220561_2_alg».proof.Proof.KernelRun
import proofs.«127091_j29257317220561_2_alg».proof.Proof.KernelValue
import proofs.«127091_j29257317220561_2_alg».proof.Proof.Bridge2
import proofs.«127091_j29257317220561_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result term, in the two spellings the run and the comparison use. -/
theorem result_term (m : (ℓ : Loc Cert.KernelIdeal.nD Cert.KernelIdeal.τ Cert.KernelIdeal.sig) → Buf (Elt Ideal) ℓ) (c : Dev Cert.KernelIdeal.nD) :
    Cert.KernelIdeal.Whole.result m c
      = Cert.Bridge.kernelTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  unfold Cert.KernelIdeal.Whole.result Cert.KernelIdeal.Whole.out1 Cert.Bridge.kernelTerm
  rfl

/-- From memories agreeing on the arguments, finite, both programs end with the same result array. -/
theorem algebraic : Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨(h c).1.trans (Cert.KernelIdeal.Whole.w10_v54 m ρ c), (h c).2⟩) (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    obtain ⟨h0, h3, h4, h5, h6, h7, h8⟩ := Cert.Finite.all_real _ _ _ _ _ _ _ _ _ (hpre c)
    rw [Cert.ReferenceIdeal.Read.val_main_v98_eq, e0, e1, e2, e3, e4, e5, e6, e7, e8]
    refine Eq.trans ?_ (result_term m c).symm
    exact (Cert.Bridge.kernel_eq_reference _ _ _ _ _ _ _ _ _ h0 h3 h4 h5 h6 h7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
